-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x16 : Shape := ⟨2, ![32768, 16]⟩
abbrev S256x16 : Shape := ⟨2, ![256, 16]⟩
abbrev S256 : Shape := ⟨1, ![256]⟩
abbrev S256x256 : Shape := ⟨2, ![256, 256]⟩
abbrev S3x256 : Shape := ⟨2, ![3, 256]⟩
abbrev S3x256x256 : Shape := ⟨3, ![3, 256, 256]⟩
abbrev S1x256 : Shape := ⟨2, ![1, 256]⟩
abbrev S1 : Shape := ⟨1, ![1]⟩
abbrev S_ : Shape := ⟨0, ![]⟩

class Facts : Prop where
  bcast_S_S32768x16 : S_.BroadcastsInDim S32768x16 (![] : Fin 0 → Fin S32768x16.rank)
  reducesTo_S32768x16_S_d0_1 : S32768x16.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S3x256 : S_.BroadcastsInDim S3x256 (![] : Fin 0 → Fin S3x256.rank)
  reducesTo_S3x256_S_d0_1 : S3x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1x256 .f32) (main_v50 : FVec F S1x256 .f32) : IVec S_ 1 :=
  let main_v51 : IVec S1x256 1 := cmpf .olt main_v49 main_v50
  let main_c_19 : IVec S_ 1 := constantI S_ 1 1#1
  let main_v52 : IVec S_ 1 := (fun x v => Host.reduce IntOp.andi x v reducesTo_S1x256_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S3x256 .f32) (main_arg8 : FVec F S3x256x256 .f32) (main_arg9 : FVec F S3x256 .f32) (main_arg10 : FVec F S1x256 .f32) (main_arg11 : FVec F S1 .f32) (main_v33 : IVec S_ 1) : IVec S_ 1 :=
  let main_v34 : FVec F S3x256 .f32 := Host.absf main_arg7
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256x256 .f32 := Host.absf main_arg8
  let main_cst_14 : FVec F S_ .f32 := constant S_ .f32 0x7F800000#32
  let main_v40 : FVec F S3x256x256 .f32 := broadcastInDim S3x256x256 ![] bcast_S_S3x256x256 main_cst_14
  let main_v41 : IVec S3x256x256 1 := cmpf .olt main_v39 main_v40
  let main_c_15 : IVec S_ 1 := constantI S_ 1 1#1
  let main_v42 : IVec S_ 1 := (fun x v => Host.reduce IntOp.andi x v reducesTo_S3x256x256_S_d0_1_2 h_S_) main_v41 main_c_15
  let main_v43 : IVec S_ 1 := andi main_v38 main_v42
  let main_v44 : FVec F S3x256 .f32 := Host.absf main_arg9
  let main_cst_16 : FVec F S_ .f32 := constant S_ .f32 0x7F800000#32
  let main_v45 : FVec F S3x256 .f32 := broadcastInDim S3x256 ![] bcast_S_S3x256 main_cst_16
  let main_v46 : IVec S3x256 1 := cmpf .olt main_v44 main_v45
  let main_c_17 : IVec S_ 1 := constantI S_ 1 1#1
  let main_v47 : IVec S_ 1 := (fun x v => Host.reduce IntOp.andi x v reducesTo_S3x256_S_d0_1 h_S_) main_v46 main_c_17
  let main_v48 : IVec S_ 1 := andi main_v43 main_v47
  let main_v49 : FVec F S1x256 .f32 := Host.absf main_arg10
  let main_cst_18 : FVec F S_ .f32 := constant S_ .f32 0x7F800000#32
  let main_v50 : FVec F S1x256 .f32 := broadcastInDim S1x256 ![] bcast_S_S1x256 main_cst_18
  fn_part3 (F := F) main_arg11 main_v48 main_v49 main_v50

def fn_part1 {F : FTy → Type} [FloatOps F] (main_arg4 : FVec F S256 .f32) (main_arg5 : FVec F S3x256 .f32) (main_arg6 : FVec F S3x256x256 .f32) (main_arg7 : FVec F S3x256 .f32) (main_arg8 : FVec F S3x256x256 .f32) (main_arg9 : FVec F S3x256 .f32) (main_arg10 : FVec F S1x256 .f32) (main_arg11 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S3x256 .f32 := Host.absf main_arg5
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  let main_v29 : FVec F S3x256x256 .f32 := Host.absf main_arg6
  let main_cst_10 : FVec F S_ .f32 := constant S_ .f32 0x7F800000#32
  let main_v30 : FVec F S3x256x256 .f32 := broadcastInDim S3x256x256 ![] bcast_S_S3x256x256 main_cst_10
  let main_v31 : IVec S3x256x256 1 := cmpf .olt main_v29 main_v30
  let main_c_11 : IVec S_ 1 := constantI S_ 1 1#1
  let main_v32 : IVec S_ 1 := (fun x v => Host.reduce IntOp.andi x v reducesTo_S3x256x256_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32768x16 .f32) (main_arg1 : FVec F S256x16 .f32) (main_arg2 : FVec F S256 .f32) (main_arg3 : FVec F S256x256 .f32) (main_arg4 : FVec F S256 .f32) (main_arg5 : FVec F S3x256 .f32) (main_arg6 : FVec F S3x256x256 .f32) (main_arg7 : FVec F S3x256 .f32) (main_arg8 : FVec F S3x256x256 .f32) (main_arg9 : FVec F S3x256 .f32) (main_arg10 : FVec F S1x256 .f32) (main_arg11 : FVec F S1 .f32) : IVec S_ 1 :=
  let main_v0 : FVec F S32768x16 .f32 := Host.absf main_arg0
  let main_cst : FVec F S_ .f32 := constant S_ .f32 0x7F800000#32
  let main_v1 : FVec F S32768x16 .f32 := broadcastInDim S32768x16 ![] bcast_S_S32768x16 main_cst
  let main_v2 : IVec S32768x16 1 := cmpf .olt main_v0 main_v1
  let main_c : IVec S_ 1 := constantI S_ 1 1#1
  let main_v3 : IVec S_ 1 := (fun x v => Host.reduce IntOp.andi x v reducesTo_S32768x16_S_d0_1 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_v13 main_v16
-- ==== Kernel.lean ====
abbrev S32768x16 : Shape := ⟨2, ![32768, 16]⟩
abbrev S256x16 : Shape := ⟨2, ![256, 16]⟩
abbrev S256 : Shape := ⟨1, ![256]⟩
abbrev S256x256 : Shape := ⟨2, ![256, 256]⟩
abbrev S3x256 : Shape := ⟨2, ![3, 256]⟩
abbrev S3x256x256 : Shape := ⟨3, ![3, 256, 256]⟩
abbrev S1x256 : Shape := ⟨2, ![1, 256]⟩
abbrev S1 : Shape := ⟨1, ![1]⟩
abbrev S1x1 : Shape := ⟨2, ![1, 1]⟩
abbrev S_ : Shape := ⟨0, ![]⟩
abbrev S32768x1 : Shape := ⟨2, ![32768, 1]⟩
abbrev S2048x16 : Shape := ⟨2, ![2048, 16]⟩
abbrev S2048x1 : Shape := ⟨2, ![2048, 1]⟩
abbrev S16x256 : Shape := ⟨2, ![16, 256]⟩
abbrev S2048x256 : Shape := ⟨2, ![2048, 256]⟩
abbrev S1x256x256 : Shape := ⟨3, ![1, 256, 256]⟩
abbrev S256x1 : Shape := ⟨2, ![256, 1]⟩
abbrev S32768x3 : Shape := ⟨2, ![32768, 3]⟩

abbrev nBuf : Space → Nat
  | .hbm => 25
  | .vmem => 15
  | .smem => 0
  | _ => 0

abbrev bufTy : (tb : Table) → Fin (tcTables nBuf tb) → BufTy
  | .hbm, ⟨0, _⟩ => ⟨S32768x16, .f32⟩
  | .hbm, ⟨1, _⟩ => ⟨S256x16, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S3x256, .f32⟩
  | .hbm, ⟨6, _⟩ => ⟨S3x256x256, .f32⟩
  | .hbm, ⟨7, _⟩ => ⟨S3x256, .f32⟩
  | .hbm, ⟨8, _⟩ => ⟨S3x256x256, .f32⟩
  | .hbm, ⟨9, _⟩ => ⟨S3x256, .f32⟩
  | .hbm, ⟨10, _⟩ => ⟨S1x256, .f32⟩
  | .hbm, ⟨11, _⟩ => ⟨S1, .f32⟩
  | .hbm, ⟨12, _⟩ => ⟨S1x256, .f32⟩
  | .hbm, ⟨13, _⟩ => ⟨S1x256, .f32⟩
  | .hbm, ⟨14, _⟩ => ⟨S1x1, .f32⟩
  | .hbm, ⟨15, _⟩ => ⟨S_, .f32⟩
  | .hbm, ⟨16, _⟩ => ⟨S256, .f32⟩
  | .hbm, ⟨17, _⟩ => ⟨S1x256, .f32⟩
  | .hbm, ⟨18, _⟩ => ⟨S256x16, .bf16⟩
  | .hbm, ⟨19, _⟩ => ⟨S256x256, .bf16⟩
  | .hbm, ⟨20, _⟩ => ⟨S3x256x256, .bf16⟩
  | .hbm, ⟨21, _⟩ => ⟨S3x256x256, .bf16⟩
  | .hbm, ⟨22, _⟩ => ⟨S1x256, .bf16⟩
  | .hbm, ⟨23, _⟩ => ⟨S32768x1, .f32⟩
  | .hbm, ⟨24, _⟩ => ⟨S32768x3, .f32⟩
  | .local _ .vmem, ⟨0, _⟩ => ⟨S2048x16, .f32⟩
  | .local _ .vmem, ⟨1, _⟩ => ⟨S2048x16, .f32⟩
  | .local _ .vmem, ⟨2, _⟩ => ⟨S256x16, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S1x256, .f32⟩
  | .local _ .vmem, ⟨7, _⟩ => ⟨S3x256x256, .bf16⟩
  | .local _ .vmem, ⟨8, _⟩ => ⟨S3x256, .f32⟩
  | .local _ .vmem, ⟨9, _⟩ => ⟨S3x256x256, .bf16⟩
  | .local _ .vmem, ⟨10, _⟩ => ⟨S3x256, .f32⟩
  | .local _ .vmem, ⟨11, _⟩ => ⟨S1x256, .bf16⟩
  | .local _ .vmem, ⟨12, _⟩ => ⟨S1x1, .f32⟩
  | .local _ .vmem, ⟨13, _⟩ => ⟨S2048x1, .f32⟩
  | .local _ .vmem, ⟨14, _⟩ => ⟨S2048x1, .f32⟩
  | _, _ => ⟨S32768x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S256_S1x256 : S256.ShapeCasts S1x256
  shapeCasts_S1_S1x1 : S1.ShapeCasts S1x1
  reducesTo_S3x256_S256_d0 : S3x256.ReducesTo [0] S256
  h_S_ : 0 < S_.numel
  bcast_S256_S1x256_1 : S256.BroadcastsInDim S1x256 (![1] : Fin 1 → Fin S1x256.rank)
  bitsLt_bf16_f32 : FTy.bits .bf16 < FTy.bits .f32
  inb_S2048x16_S2048x16_0_0 : ∀ a, (![0, 0] : Fin 2 → Nat) a + S2048x16.size a ≤ S2048x16.size a
  h_S2048x16 : 0 < S2048x16.numel
  inb_S256x16_S256x16_0_0 : ∀ a, (![0, 0] : Fin 2 → Nat) a + S256x16.size a ≤ S256x16.size a
  h_S256x16 : 0 < S256x16.numel
  shapeCasts_S256x16_S256x16 : S256x16.ShapeCasts S256x16
  transposes_S256x16_p1_0_S16x256 : S256x16.Transposes [1, 0] S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S256x256_p1_0_S256x256 : S256x256.Transposes [1, 0] S256x256
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x256_S1x256_0_0 : ∀ a, (![0, 0] : Fin 2 → Nat) a + S1x256.size a ≤ S3x256.size a
  shapeCasts_S1x256_S256 : S1x256.ShapeCasts S256
  inb_S3x256x256_S1x256x256_1_0_0 : ∀ a, (![1, 0, 0] : Fin 3 → Nat) a + S1x256x256.size a ≤ S3x256x256.size a
  inb_S3x256_S1x256_1_0 : ∀ a, (![1, 0] : Fin 2 → Nat) a + S1x256.size a ≤ S3x256.size a
  inb_S3x256x256_S1x256x256_2_0_0 : ∀ a, (![2, 0, 0] : Fin 3 → Nat) a + S1x256x256.size a ≤ S3x256x256.size a
  inb_S3x256_S1x256_2_0 : ∀ a, (![2, 0] : Fin 2 → Nat) a + S1x256.size a ≤ S3x256.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  transposes_S1x256_p1_0_S256x1 : S1x256.Transposes [1, 0] S256x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  bcast_S32768x1_S32768x3_0_1 : S32768x1.BroadcastsInDim S32768x3 (![0, 1] : Fin 2 → Fin S32768x3.rank)
  dot_S2048x16_S16x256_S2048x256_1_0_0_1_n_n_wf : DotDims.WF S2048x16 S16x256 S2048x256 [1] [0] [0] [1] [] []
  dot_S2048x256_S256x256_S2048x256_1_0_0_1_n_n_wf : DotDims.WF S2048x256 S256x256 S2048x256 [1] [0] [0] [1] [] []
  dot_S2048x256_S256x1_S2048x1_1_0_0_1_n_n_wf : DotDims.WF S2048x256 S256x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x16.size a ≤ S32768x16.size a
  hwx0_0 : ∀ i : grid0.Coords, EltTy.bits .f32 = 32 ∨ (Rect.block (s := S32768x16) S2048x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .bf16 = 32 ∨ (Rect.block (s := S256x16) S256x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x256x256.size a ≤ S3x256x256.size a
  hwx0_6 : ∀ i : grid0.Coords, EltTy.bits .bf16 = 32 ∨ (Rect.block (s := S3x256x256) S3x256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x256.size a ≤ S3x256.size a
  hwx0_7 : ∀ i : grid0.Coords, EltTy.bits .f32 = 32 ∨ (Rect.block (s := S3x256) S3x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x256x256.size a ≤ S3x256x256.size a
  hwx0_8 : ∀ i : grid0.Coords, EltTy.bits .bf16 = 32 ∨ (Rect.block (s := S3x256x256) S3x256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x256.size a ≤ S3x256.size a
  hwx0_9 : ∀ i : grid0.Coords, EltTy.bits .f32 = 32 ∨ (Rect.block (s := S3x256) S3x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .bf16 = 32 ∨ (Rect.block (s := S1x256) S1x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x1.size a ≤ S32768x1.size a
  hwx0_12 : ∀ i : grid0.Coords, EltTy.bits .f32 = 32 ∨ (Rect.block (s := S32768x1) S2048x1.size (cc0_transform_12 i) (hinb0_12 i)).WholeWords (EltTy.packing .f32)

variable [Facts₀]

def dot_S2048x16_S16x256_S2048x256_1_0_0_1_n_n : DotDims S2048x16 S16x256 S2048x256 where
  lhsContracting := [1]
  rhsContracting := [0]
  lhsNonContracting := [0]
  rhsNonContracting := [1]
  lhsBatch := []
  rhsBatch := []
  wf := dot_S2048x16_S16x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

abbrev win0_0 : Pipeline.Window sig grid0 :=
  Pipeline.Window.ofSpec (Memref.whole main_arg0) S2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S3x256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S3x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S3x256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S3x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S2048x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32768x16 : Shape := ⟨2, ![32768, 16]⟩
abbrev S256x16 : Shape := ⟨2, ![256, 16]⟩
abbrev S256 : Shape := ⟨1, ![256]⟩
abbrev S256x256 : Shape := ⟨2, ![256, 256]⟩
abbrev S3x256 : Shape := ⟨2, ![3, 256]⟩
abbrev S3x256x256 : Shape := ⟨3, ![3, 256, 256]⟩
abbrev S1x256 : Shape := ⟨2, ![1, 256]⟩
abbrev S1 : Shape := ⟨1, ![1]⟩
abbrev S16x256 : Shape := ⟨2, ![16, 256]⟩
abbrev S32768x256 : Shape := ⟨2, ![32768, 256]⟩
abbrev S_ : Shape := ⟨0, ![]⟩
abbrev S1x3x256 : Shape := ⟨3, ![1, 3, 256]⟩
abbrev S32768x1x256 : Shape := ⟨3, ![32768, 1, 256]⟩
abbrev S32768x3x256 : Shape := ⟨3, ![32768, 3, 256]⟩
abbrev S1x256x256 : Shape := ⟨3, ![1, 256, 256]⟩
abbrev S1x1x256 : Shape := ⟨3, ![1, 1, 256]⟩
abbrev S32768x3x1 : Shape := ⟨3, ![32768, 3, 1]⟩
abbrev S1x1x1 : Shape := ⟨3, ![1, 1, 1]⟩
abbrev S32768x3 : Shape := ⟨2, ![32768, 3]⟩

abbrev nBuf : Space → Nat
  | .hbm => 122
  | .vmem => 0
  | .smem => 0
  | _ => 0

abbrev bufTy : (tb : Table) → Fin (tcTables nBuf tb) → BufTy
  | .hbm, ⟨0, _⟩ => ⟨S32768x16, .f32⟩
  | .hbm, ⟨1, _⟩ => ⟨S256x16, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S3x256, .f32⟩
  | .hbm, ⟨6, _⟩ => ⟨S3x256x256, .f32⟩
  | .hbm, ⟨7, _⟩ => ⟨S3x256, .f32⟩
  | .hbm, ⟨8, _⟩ => ⟨S3x256x256, .f32⟩
  | .hbm, ⟨9, _⟩ => ⟨S3x256, .f32⟩
  | .hbm, ⟨10, _⟩ => ⟨S1x256, .f32⟩
  | .hbm, ⟨11, _⟩ => ⟨S1, .f32⟩
  | .hbm, ⟨12, _⟩ => ⟨S16x256, .f32⟩
  | .hbm, ⟨13, _⟩ => ⟨S32768x256, .f32⟩
  | .hbm, ⟨14, _⟩ => ⟨S1x256, .f32⟩
  | .hbm, ⟨15, _⟩ => ⟨S32768x256, .f32⟩
  | .hbm, ⟨16, _⟩ => ⟨S32768x256, .f32⟩
  | .hbm, ⟨17, _⟩ => ⟨S_, .f32⟩
  | .hbm, ⟨18, _⟩ => ⟨S32768x256, .f32⟩
  | .hbm, ⟨19, _⟩ => ⟨S32768x256, .f32⟩
  | .hbm, ⟨20, _⟩ => ⟨S256x256, .f32⟩
  | .hbm, ⟨21, _⟩ => ⟨S32768x256, .f32⟩
  | .hbm, ⟨22, _⟩ => ⟨S1x256, .f32⟩
  | .hbm, ⟨23, _⟩ => ⟨S32768x256, .f32⟩
  | .hbm, ⟨24, _⟩ => ⟨S32768x256, .f32⟩
  | .hbm, ⟨25, _⟩ => ⟨S_, .f32⟩
  | .hbm, ⟨26, _⟩ => ⟨S32768x256, .f32⟩
  | .hbm, ⟨27, _⟩ => ⟨S32768x256, .f32⟩
  | .hbm, ⟨28, _⟩ => ⟨S1x3x256, .f32⟩
  | .hbm, ⟨29, _⟩ => ⟨S32768x1x256, .f32⟩
  | .hbm, ⟨30, _⟩ => ⟨S32768x3x256, .f32⟩
  | .hbm, ⟨31, _⟩ => ⟨S32768x3x256, .f32⟩
  | .hbm, ⟨32, _⟩ => ⟨S32768x3x256, .f32⟩
  | .hbm, ⟨33, _⟩ => ⟨S_, .f32⟩
  | .hbm, ⟨34, _⟩ => ⟨S32768x256, .f32⟩
  | .hbm, ⟨35, _⟩ => ⟨S32768x1x256, .f32⟩
  | .hbm, ⟨36, _⟩ => ⟨S32768x3x256, .f32⟩
  | .hbm, ⟨37, _⟩ => ⟨S32768x3x256, .f32⟩
  | .hbm, ⟨38, _⟩ => ⟨S32768x3x256, .f32⟩
  | .hbm, ⟨39, _⟩ => ⟨S1x256x256, .f32⟩
  | .hbm, ⟨40, _⟩ => ⟨S256x256, .f32⟩
  | .hbm, ⟨41, _⟩ => ⟨S32768x3x256, .f32⟩
  | .hbm, ⟨42, _⟩ => ⟨S1x256, .f32⟩
  | .hbm, ⟨43, _⟩ => ⟨S256, .f32⟩
  | .hbm, ⟨44, _⟩ => ⟨S1x1x256, .f32⟩
  | .hbm, ⟨45, _⟩ => ⟨S32768x3x256, .f32⟩
  | .hbm, ⟨46, _⟩ => ⟨S32768x3x256, .f32⟩
  | .hbm, ⟨47, _⟩ => ⟨S_, .f32⟩
  | .hbm, ⟨48, _⟩ => ⟨S32768x3x256, .f32⟩
  | .hbm, ⟨49, _⟩ => ⟨S32768x3x256, .f32⟩
  | .hbm, ⟨50, _⟩ => ⟨S1x256x256, .f32⟩
  | .hbm, ⟨51, _⟩ => ⟨S256x256, .f32⟩
  | .hbm, ⟨52, _⟩ => ⟨S32768x3x256, .f32⟩
  | .hbm, ⟨53, _⟩ => ⟨S1x256, .f32⟩
  | .hbm, ⟨54, _⟩ => ⟨S256, .f32⟩
  | .hbm, ⟨55, _⟩ => ⟨S1x1x256, .f32⟩
  | .hbm, ⟨56, _⟩ => ⟨S32768x3x256, .f32⟩
  | .hbm, ⟨57, _⟩ => ⟨S32768x3x256, .f32⟩
  | .hbm, ⟨58, _⟩ => ⟨S_, .f32⟩
  | .hbm, ⟨59, _⟩ => ⟨S32768x3x256, .f32⟩
  | .hbm, ⟨60, _⟩ => ⟨S32768x3x256, .f32⟩
  | .hbm, ⟨61, _⟩ => ⟨S_, .f32⟩
  | .hbm, ⟨62, _⟩ => ⟨S32768x256, .f32⟩
  | .hbm, ⟨63, _⟩ => ⟨S32768x1x256, .f32⟩
  | .hbm, ⟨64, _⟩ => ⟨S32768x3x256, .f32⟩
  | .hbm, ⟨65, _⟩ => ⟨S32768x3x256, .f32⟩
  | .hbm, ⟨66, _⟩ => ⟨S32768x3x256, .f32⟩
  | .hbm, ⟨67, _⟩ => ⟨S1x256x256, .f32⟩
  | .hbm, ⟨68, _⟩ => ⟨S256x256, .f32⟩
  | .hbm, ⟨69, _⟩ => ⟨S32768x3x256, .f32⟩
  | .hbm, ⟨70, _⟩ => ⟨S1x256, .f32⟩
  | .hbm, ⟨71, _⟩ => ⟨S256, .f32⟩
  | .hbm, ⟨72, _⟩ => ⟨S1x1x256, .f32⟩
  | .hbm, ⟨73, _⟩ => ⟨S32768x3x256, .f32⟩
  | .hbm, ⟨74, _⟩ => ⟨S32768x3x256, .f32⟩
  | .hbm, ⟨75, _⟩ => ⟨S_, .f32⟩
  | .hbm, ⟨76, _⟩ => ⟨S32768x3x256, .f32⟩
  | .hbm, ⟨77, _⟩ => ⟨S32768x3x256, .f32⟩
  | .hbm, ⟨78, _⟩ => ⟨S1x256x256, .f32⟩
  | .hbm, ⟨79, _⟩ => ⟨S256x256, .f32⟩
  | .hbm, ⟨80, _⟩ => ⟨S32768x3x256, .f32⟩
  | .hbm, ⟨81, _⟩ => ⟨S1x256, .f32⟩
  | .hbm, ⟨82, _⟩ => ⟨S256, .f32⟩
  | .hbm, ⟨83, _⟩ => ⟨S1x1x256, .f32⟩
  | .hbm, ⟨84, _⟩ => ⟨S32768x3x256, .f32⟩
  | .hbm, ⟨85, _⟩ => ⟨S32768x3x256, .f32⟩
  | .hbm, ⟨86, _⟩ => ⟨S_, .f32⟩
  | .hbm, ⟨87, _⟩ => ⟨S32768x3x256, .f32⟩
  | .hbm, ⟨88, _⟩ => ⟨S32768x3x256, .f32⟩
  | .hbm, ⟨89, _⟩ => ⟨S_, .f32⟩
  | .hbm, ⟨90, _⟩ => ⟨S32768x256, .f32⟩
  | .hbm, ⟨91, _⟩ => ⟨S32768x1x256, .f32⟩
  | .hbm, ⟨92, _⟩ => ⟨S32768x3x256, .f32⟩
  | .hbm, ⟨93, _⟩ => ⟨S32768x3x256, .f32⟩
  | .hbm, ⟨94, _⟩ => ⟨S32768x3x256, .f32⟩
  | .hbm, ⟨95, _⟩ => ⟨S1x256x256, .f32⟩
  | .hbm, ⟨96, _⟩ => ⟨S256x256, .f32⟩
  | .hbm, ⟨97, _⟩ => ⟨S32768x3x256, .f32⟩
  | .hbm, ⟨98, _⟩ => ⟨S1x256, .f32⟩
  | .hbm, ⟨99, _⟩ => ⟨S256, .f32⟩
  | .hbm, ⟨100, _⟩ => ⟨S1x1x256, .f32⟩
  | .hbm, ⟨101, _⟩ => ⟨S32768x3x256, .f32⟩
  | .hbm, ⟨102, _⟩ => ⟨S32768x3x256, .f32⟩
  | .hbm, ⟨103, _⟩ => ⟨S_, .f32⟩
  | .hbm, ⟨104, _⟩ => ⟨S32768x3x256, .f32⟩
  | .hbm, ⟨105, _⟩ => ⟨S32768x3x256, .f32⟩
  | .hbm, ⟨106, _⟩ => ⟨S1x256x256, .f32⟩
  | .hbm, ⟨107, _⟩ => ⟨S256x256, .f32⟩
  | .hbm, ⟨108, _⟩ => ⟨S32768x3x256, .f32⟩
  | .hbm, ⟨109, _⟩ => ⟨S1x256, .f32⟩
  | .hbm, ⟨110, _⟩ => ⟨S256, .f32⟩
  | .hbm, ⟨111, _⟩ => ⟨S1x1x256, .f32⟩
  | .hbm, ⟨112, _⟩ => ⟨S32768x3x256, .f32⟩
  | .hbm, ⟨113, _⟩ => ⟨S32768x3x256, .f32⟩
  | .hbm, ⟨114, _⟩ => ⟨S_, .f32⟩
  | .hbm, ⟨115, _⟩ => ⟨S32768x3x256, .f32⟩
  | .hbm, ⟨116, _⟩ => ⟨S32768x3x256, .f32⟩
  | .hbm, ⟨117, _⟩ => ⟨S32768x3x1, .f32⟩
  | .hbm, ⟨118, _⟩ => ⟨S1x1x1, .f32⟩
  | .hbm, ⟨119, _⟩ => ⟨S32768x3x1, .f32⟩
  | .hbm, ⟨120, _⟩ => ⟨S32768x3x1, .f32⟩
  | .hbm, ⟨121, _⟩ => ⟨S32768x3, .f32⟩
  | _, _ => ⟨S32768x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call2_cst : Ref sig .tc := ⟨.hbm, 47, rfl⟩
abbrev main_call2_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call3_cst : Ref sig .tc := ⟨.hbm, 58, rfl⟩
abbrev main_call3_v0 : Ref sig .tc := ⟨.hbm, 59, rfl⟩
abbrev main_v39 : Ref sig .tc := ⟨.hbm, 60, rfl⟩
abbrev main_cst_0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call4_cst : Ref sig .tc := ⟨.hbm, 75, rfl⟩
abbrev main_call4_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call5_cst : Ref sig .tc := ⟨.hbm, 86, rfl⟩
abbrev main_call5_v0 : Ref sig .tc := ⟨.hbm, 87, rfl⟩
abbrev main_v62 : Ref sig .tc := ⟨.hbm, 88, rfl⟩
abbrev main_cst_1 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_call6_cst : Ref sig .tc := ⟨.hbm, 103, rfl⟩
abbrev main_call6_v0 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_call7_cst : Ref sig .tc := ⟨.hbm, 114, rfl⟩
abbrev main_call7_v0 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩

abbrev nD : Nat := 1
abbrev τ : Topo := Topo.v7x

variable {F : FTy → Type} [FloatOps F]

class Facts₀ : Prop where
  transposes_S256x16_S16x256_1_0 : S256x16.Transposes [1, 0] S16x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  transposes_S256x256_S256x256_1_0 : S256x256.Transposes [1, 0] S256x256
  bcast_S3x256_S1x3x256_1_2 : S3x256.BroadcastsInDim S1x3x256 (![1, 2] : Fin 2 → Fin S1x3x256.rank)
  bcast_S32768x256_S32768x1x256_0_2 : S32768x256.BroadcastsInDim S32768x1x256 (![0, 2] : Fin 2 → Fin S32768x1x256.rank)
  bcast_S1x3x256_S32768x3x256_0_1_2 : S1x3x256.BroadcastsInDim S32768x3x256 (![0, 1, 2] : Fin 3 → Fin S32768x3x256.rank)
  bcast_S32768x1x256_S32768x3x256_0_1_2 : S32768x1x256.BroadcastsInDim S32768x3x256 (![0, 1, 2] : Fin 3 → Fin S32768x3x256.rank)
  reducesTo_S32768x3x256_S32768x256_d1 : S32768x3x256.ReducesTo [1] S32768x256
  h_S_ : 0 < S_.numel
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S256_S1x1x256_2 : S256.BroadcastsInDim S1x1x256 (![2] : Fin 1 → Fin S1x1x256.rank)
  bcast_S1x1x256_S32768x3x256_0_1_2 : S1x1x256.BroadcastsInDim S32768x3x256 (![0, 1, 2] : Fin 3 → Fin S32768x3x256.rank)
  bcast_S_S32768x3x256 : S_.BroadcastsInDim S32768x3x256 (![] : Fin 0 → Fin S32768x3x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S1_S1x1x1_2 : S1.BroadcastsInDim S1x1x1 (![2] : Fin 1 → Fin S1x1x1.rank)
  bcast_S1x1x1_S32768x3x1_0_1_2 : S1x1x1.BroadcastsInDim S32768x3x1 (![0, 1, 2] : Fin 3 → Fin S32768x3x1.rank)
  shapeCasts_S32768x3x1_S32768x3 : S32768x3x1.ShapeCasts S32768x3
  dot_S32768x16_S16x256_S32768x256_1_0_0_1_n_n_wf : DotDims.WF S32768x16 S16x256 S32768x256 [1] [0] [0] [1] [] []
  dot_S32768x256_S256x256_S32768x256_1_0_0_1_n_n_wf : DotDims.WF S32768x256 S256x256 S32768x256 [1] [0] [0] [1] [] []
  dot_S32768x3x256_S256x256_S32768x3x256_2_1_01_0_n_n_wf : DotDims.WF S32768x3x256 S256x256 S32768x3x256 [2] [1] [0, 1] [0] [] []
  dot_S32768x3x256_S1x256_S32768x3x1_2_1_01_0_n_n_wf : DotDims.WF S32768x3x256 S1x256 S32768x3x1 [2] [1] [0, 1] [0] [] []

variable [Facts₀]

def dot_S32768x16_S16x256_S32768x256_1_0_0_1_n_n : DotDims S32768x16 S16x256 S32768x256 where
  lhsContracting := [1]
  rhsContracting := [0]
  lhsNonContracting := [0]
  rhsNonContracting := [1]
  lhsBatch := []
  rhsBatch := []
  wf := dot_S32768x16_S16x256_S32768x256_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S32768x3x256_S256x256_S32768x3x256_2_1_01_0_n_n : DotDims S32768x3x256 S256x256 S32768x3x256 where
  lhsContracting := [2]
  rhsContracting := [1]
  lhsNonContracting := [0, 1]
  rhsNonContracting := [0]
  lhsBatch := []
  rhsBatch := []
  wf := dot_S32768x3x256_S256x256_S32768x3x256_2_1_01_0_n_n_wf
def dot_S32768x3x256_S1x256_S32768x3x1_2_1_01_0_n_n : DotDims S32768x3x256 S1x256 S32768x3x1 where
  lhsContracting := [2]
  rhsContracting := [1]
  lhsNonContracting := [0, 1]
  rhsNonContracting := [0]
  lhsBatch := []
  rhsBatch := []
  wf := dot_S32768x3x256_S1x256_S32768x3x1_2_1_01_0_n_n_wf

class Facts : Prop extends Facts₀ where

variable [Facts]
-- ==== Proof.Spec.lean ====
/-
  The mathematics of a three-node complete-graph GIN, row by row, on the extended reals.

  One sample is a row x of 16 numbers. An encoder (two affine layers, each followed by max(·, 0)) sends it to a
  row e of 256 numbers. Three nodes start at init_j + e. A layer replaces node j by
  MLP(node_j + (S - node_j)), S the sum of the three nodes, and the prediction of node j is an affine
  function of its last value.

  Since node_j + (S - node_j) = S whenever node_j is a finite real, every node receives the same input S, so
  after the first layer the three nodes are equal and the next S is three times their common value; the
  first S is 3e + (init_0 + init_1 + init_2). That is the single chain below ("collapsed"), and the theorem
  of this file: with finite parameters and a finite sample, every node's prediction is the collapsed
  chain's. The law a + (S - a) = S fails for an infinite a, which is why finiteness is carried through
  every layer.
-/
import Mathlib.Data.EReal.Basic
import Mathlib.Algebra.BigOperators.Fin
import Mathlib.Tactic

noncomputable section

namespace Cert.K3Gin

open scoped BigOperators

/-! ## Rows, affine layers, the rectifier -/

/-- An affine layer on a row: entry o is (sum over q of v q * W o q) + b o. -/
def affine {n k : ℕ} (W : Fin n → Fin k → EReal) (b : Fin n → EReal) (v : Fin k → EReal) : Fin n → EReal :=
  fun o => (∑ q : Fin k, v q * W o q) + b o

/-- The rectifier, entry by entry. -/
def relu {n : ℕ} (v : Fin n → EReal) : Fin n → EReal := fun o => max (v o) 0

/-- Two affine layers, each followed by the rectifier. -/
def mlp {k : ℕ} (A : Fin 256 → Fin k → EReal) (a : Fin 256 → EReal) (B : Fin 256 → Fin 256 → EReal)
    (b : Fin 256 → EReal) (h : Fin k → EReal) : Fin 256 → EReal :=
  relu (affine B b (relu (affine A a h)))

/-- The parameters of the network. -/
structure Params where
  W0 : Fin 256 → Fin 16 → EReal
  b0 : Fin 256 → EReal
  W1 : Fin 256 → Fin 256 → EReal
  b1 : Fin 256 → EReal
  init : Fin 3 → Fin 256 → EReal
  G1 : Fin 3 → Fin 256 → Fin 256 → EReal
  g1 : Fin 3 → Fin 256 → EReal
  G2 : Fin 3 → Fin 256 → Fin 256 → EReal
  g2 : Fin 3 → Fin 256 → EReal
  dw : Fin 256 → EReal
  db : EReal

/-- The encoder's row. -/
def enc (P : Params) (x : Fin 16 → EReal) : Fin 256 → EReal := mlp P.W0 P.b0 P.W1 P.b1 x

/-- Layer l's MLP. -/
def gin (P : Params) (l : Fin 3) (h : Fin 256 → EReal) : Fin 256 → EReal :=
  mlp (P.G1 l) (P.g1 l) (P.G2 l) (P.g2 l) h

/-- The decoder: one affine output. -/
def dec (P : Params) (n : Fin 256 → EReal) : EReal := (∑ q : Fin 256, n q * P.dw q) + P.db

/-! ## The collapsed chain -/

/-- The three initial node rows summed, from zero. -/
def sumInit (P : Params) : Fin 256 → EReal := fun o => 0 + ∑ j : Fin 3, P.init j o

/-- The collapsed chain from a given row s in place of the summed initial nodes. -/
def collapsedFrom (P : Params) (s : Fin 256 → EReal) (x : Fin 16 → EReal) : EReal :=
  dec P (gin P 2 (fun o => 3 * gin P 1 (fun o => 3 * gin P 0 (fun o => 3 * enc P x o + s o) o) o))

/-- The collapsed chain. -/
def collapsed (P : Params) (x : Fin 16 → EReal) : EReal := collapsedFrom P (sumInit P) x

/-! ## The three-node chain -/

/-- The nodes before the first layer. -/
def nodes0 (P : Params) (x : Fin 16 → EReal) : Fin 3 → Fin 256 → EReal := fun j o => P.init j o + enc P x o

/-- What node j's MLP receives: itself plus (the sum of the nodes, from zero, minus itself). -/
def gather (nodes : Fin 3 → Fin 256 → EReal) (j : Fin 3) : Fin 256 → EReal :=
  fun o => nodes j o + ((0 + ∑ j' : Fin 3, nodes j' o) - nodes j o)

/-- One layer on the three nodes. -/
def layer (P : Params) (l : Fin 3) (nodes : Fin 3 → Fin 256 → EReal) : Fin 3 → Fin 256 → EReal :=
  fun j => gin P l (gather nodes j)

/-- Node j's prediction. -/
def perNode (P : Params) (x : Fin 16 → EReal) (j : Fin 3) : EReal :=
  dec P (layer P 2 (layer P 1 (layer P 0 (nodes0 P x))) j)

/-! ## Finite reals inside the extended reals -/

/-- The extended real is a real number. -/
def IsFin (a : EReal) : Prop := ∃ r : ℝ, a = (r : EReal)

theorem IsFin.zero : IsFin 0 := ⟨0, rfl⟩
theorem IsFin.three : IsFin 3 := ⟨3, by norm_cast⟩
theorem IsFin.add {a b : EReal} (ha : IsFin a) (hb : IsFin b) : IsFin (a + b) := by
  obtain ⟨r, rfl⟩ := ha; obtain ⟨s, rfl⟩ := hb; exact ⟨r + s, by norm_cast⟩
theorem IsFin.mul {a b : EReal} (ha : IsFin a) (hb : IsFin b) : IsFin (a * b) := by
  obtain ⟨r, rfl⟩ := ha; obtain ⟨s, rfl⟩ := hb; exact ⟨r * s, by norm_cast⟩
theorem IsFin.max_zero {a : EReal} (ha : IsFin a) : IsFin (max a 0) := by
  obtain ⟨r, rfl⟩ := ha
  rcases le_total (r : EReal) 0 with h | h
  · rw [max_eq_right h]; exact IsFin.zero
  · rw [max_eq_left h]; exact ⟨r, rfl⟩
theorem IsFin.sum {ι : Type*} (s : Finset ι) (f : ι → EReal) (h : ∀ i ∈ s, IsFin (f i)) : IsFin (∑ i ∈ s, f i) := by
  classical
  induction s using Finset.induction_on with
  | empty => simpa using IsFin.zero
  | insert a s ha ih =>
    rw [Finset.sum_insert ha]
    exact (h a (Finset.mem_insert_self a s)).add (ih fun i hi => h i (Finset.mem_insert_of_mem hi))

/-- A row of finite reals. -/
def RowFin {n : ℕ} (v : Fin n → EReal) : Prop := ∀ o, IsFin (v o)

theorem affine_fin {n k : ℕ} {W : Fin n → Fin k → EReal} {b : Fin n → EReal} {v : Fin k → EReal}
    (hW : ∀ o q, IsFin (W o q)) (hb : RowFin b) (hv : RowFin v) : RowFin (affine W b v) := fun o =>
  (IsFin.sum _ _ fun q _ => (hv q).mul (hW o q)).add (hb o)

theorem relu_fin {n : ℕ} {v : Fin n → EReal} (hv : RowFin v) : RowFin (relu v) := fun o => (hv o).max_zero

theorem mlp_fin {k : ℕ} {A : Fin 256 → Fin k → EReal} {a : Fin 256 → EReal} {B : Fin 256 → Fin 256 → EReal}
    {b : Fin 256 → EReal} {h : Fin k → EReal} (hA : ∀ o q, IsFin (A o q)) (ha : RowFin a)
    (hB : ∀ o q, IsFin (B o q)) (hb : RowFin b) (hh : RowFin h) : RowFin (mlp A a B b h) :=
  relu_fin (affine_fin hB hb (relu_fin (affine_fin hA ha hh)))

/-- Every parameter is a finite real. -/
structure Params.Fin (P : Params) : Prop where
  W0 : ∀ o q, IsFin (P.W0 o q)
  b0 : RowFin P.b0
  W1 : ∀ o q, IsFin (P.W1 o q)
  b1 : RowFin P.b1
  init : ∀ j, RowFin (P.init j)
  G1 : ∀ l o q, IsFin (P.G1 l o q)
  g1 : ∀ l, RowFin (P.g1 l)
  G2 : ∀ l o q, IsFin (P.G2 l o q)
  g2 : ∀ l, RowFin (P.g2 l)
  dw : RowFin P.dw
  db : IsFin P.db

theorem enc_fin {P : Params} (hP : P.Fin) {x : Fin 16 → EReal} (hx : RowFin x) : RowFin (enc P x) :=
  mlp_fin hP.W0 hP.b0 hP.W1 hP.b1 hx

theorem gin_fin {P : Params} (hP : P.Fin) (l : Fin 3) {h : Fin 256 → EReal} (hh : RowFin h) : RowFin (gin P l h) :=
  mlp_fin (hP.G1 l) (hP.g1 l) (hP.G2 l) (hP.g2 l) hh

/-! ## The collapse -/

/-- For a finite a, a + (S - a) = S, whatever S. -/
theorem add_sub_cancel_of_fin {a : EReal} (ha : IsFin a) (S : EReal) : a + (S - a) = S := by
  obtain ⟨r, rfl⟩ := ha
  induction S using EReal.rec with
  | bot => simp
  | coe s => norm_cast; ring
  | top => simp

/-- Each node receives the sum of the nodes, when the nodes are finite. -/
theorem gather_eq {nodes : Fin 3 → Fin 256 → EReal} (h : ∀ j, RowFin (nodes j)) (j : Fin 3) :
    gather nodes j = fun o => 0 + ∑ j' : Fin 3, nodes j' o :=
  funext fun o => add_sub_cancel_of_fin (h j o) _

/-- Three equal finite summands, from zero, are three times one of them. -/
theorem sum_three_same {a : EReal} (ha : IsFin a) : (0 + ∑ _j : Fin 3, a) = 3 * a := by
  obtain ⟨r, rfl⟩ := ha
  rw [Fin.sum_univ_three, show (3 : EReal) = ((3 : ℝ) : EReal) from rfl]; norm_cast; ring

/-- The first sum of the nodes: three times the encoder's row plus the summed initial nodes. -/
theorem sum_nodes0 {P : Params} (hP : P.Fin) {x : Fin 16 → EReal} (hx : RowFin x) (o : Fin 256) :
    (0 + ∑ j : Fin 3, nodes0 P x j o) = 3 * enc P x o + sumInit P o := by
  obtain ⟨e, he⟩ := enc_fin hP hx o
  obtain ⟨a0, h0⟩ := hP.init 0 o
  obtain ⟨a1, h1⟩ := hP.init 1 o
  obtain ⟨a2, h2⟩ := hP.init 2 o
  simp only [nodes0, sumInit, Fin.sum_univ_three, he, h0, h1, h2]
  rw [show (3 : EReal) = ((3 : ℝ) : EReal) from rfl]; norm_cast; ring

/-- A layer on three equal finite nodes gives three equal nodes: the MLP of three times the common row. -/
theorem layer_same {P : Params} (l : Fin 3) {n : Fin 256 → EReal} (hn : RowFin n) (j : Fin 3) :
    layer P l (fun _ => n) j = gin P l (fun o => 3 * n o) := by
  unfold layer
  rw [gather_eq (fun _ => hn) j]
  exact congrArg (gin P l) (funext fun o => sum_three_same (hn o))

/-- With finite parameters and a finite sample, every node's prediction is the collapsed chain's. -/
theorem perNode_eq_collapsed {P : Params} (hP : P.Fin) {x : Fin 16 → EReal} (hx : RowFin x) (j : Fin 3) :
    perNode P x j = collapsed P x := by
  have h0 : layer P 0 (nodes0 P x) = fun _ => gin P 0 (fun o => 3 * enc P x o + sumInit P o) := by
    funext j'
    unfold layer
    rw [gather_eq (nodes := nodes0 P x) (fun j'' o => (hP.init j'' o).add (enc_fin hP hx o)) j']
    exact congrArg (gin P 0) (funext fun o => sum_nodes0 hP hx o)
  have hin : RowFin (fun o => 3 * enc P x o + sumInit P o) := fun o =>
    (IsFin.three.mul (enc_fin hP hx o)).add
      (IsFin.zero.add (IsFin.sum _ _ fun j' _ => hP.init j' o))
  have f0 : RowFin (gin P 0 (fun o => 3 * enc P x o + sumInit P o)) := gin_fin hP 0 hin
  have h1 : layer P 1 (layer P 0 (nodes0 P x)) = fun _ => gin P 1 (fun o => 3 * gin P 0 (fun o => 3 * enc P x o + sumInit P o) o) := by
    rw [h0]; funext j'; exact layer_same 1 f0 j'
  have f1 : RowFin (gin P 1 (fun o => 3 * gin P 0 (fun o => 3 * enc P x o + sumInit P o) o)) :=
    gin_fin hP 1 fun o => IsFin.three.mul (f0 o)
  unfold perNode collapsed collapsedFrom
  rw [h1, layer_same 2 f1 j]

end Cert.K3Gin

end
-- ==== Proof.Params.lean ====
/-
  The network's parameters read off arrays.

  Two readings of the same numbers. The reference receives the arrays as the caller passes them: the two
  encoder biases and the decoder bias as vectors, each stacked GIN array with its layer on the leading axis.
  The kernel's body receives them as blocks: the biases as one-row matrices, the decoder bias as a 1 x 1
  matrix, and in place of the three initial node rows a single row, already summed. Entry by entry the two
  readings name the same parameters; the initial nodes, which the body never sees, are passed to the second
  reading from outside.
-/
import proofs.«145630_j54657753809375_2_alg».proof.Proof.Spec
import Idealize.ShloMosaic.Lib.ValueIdx

noncomputable section

namespace Cert.K3Gin

open Idealize.ShloMosaic Idealize.ShloMosaic.ValueIdx

/-- The parameters as the reference's arguments hold them. -/
def paramsOf
    (w0 : (⟨2, ![256, 16]⟩ : Shape).Idx → EReal) (b0 : (⟨1, ![256]⟩ : Shape).Idx → EReal)
    (w1 : (⟨2, ![256, 256]⟩ : Shape).Idx → EReal) (b1 : (⟨1, ![256]⟩ : Shape).Idx → EReal)
    (init : (⟨2, ![3, 256]⟩ : Shape).Idx → EReal)
    (g1w : (⟨3, ![3, 256, 256]⟩ : Shape).Idx → EReal) (g1b : (⟨2, ![3, 256]⟩ : Shape).Idx → EReal)
    (g2w : (⟨3, ![3, 256, 256]⟩ : Shape).Idx → EReal) (g2b : (⟨2, ![3, 256]⟩ : Shape).Idx → EReal)
    (dw : (⟨2, ![1, 256]⟩ : Shape).Idx → EReal) (db : (⟨1, ![1]⟩ : Shape).Idx → EReal) : Params where
  W0 o q := w0 (ix2 o q)
  b0 o := b0 (ix1 o)
  W1 o q := w1 (ix2 o q)
  b1 o := b1 (ix1 o)
  init j o := init (ix2 j o)
  G1 l o q := g1w (ix3 l o q)
  g1 l o := g1b (ix2 l o)
  G2 l o q := g2w (ix3 l o q)
  g2 l o := g2b (ix2 l o)
  dw q := dw (ix2 (0 : Fin 1) q)
  db := db (ix1 (0 : Fin 1))

/-- The parameters as the kernel body's blocks hold them; the initial nodes given from outside. -/
def blockParams (init : Fin 3 → Fin 256 → EReal)
    (w0 : (⟨2, ![256, 16]⟩ : Shape).Idx → EReal) (b0 : (⟨2, ![1, 256]⟩ : Shape).Idx → EReal)
    (w1 : (⟨2, ![256, 256]⟩ : Shape).Idx → EReal) (b1 : (⟨2, ![1, 256]⟩ : Shape).Idx → EReal)
    (g1w : (⟨3, ![3, 256, 256]⟩ : Shape).Idx → EReal) (g1b : (⟨2, ![3, 256]⟩ : Shape).Idx → EReal)
    (g2w : (⟨3, ![3, 256, 256]⟩ : Shape).Idx → EReal) (g2b : (⟨2, ![3, 256]⟩ : Shape).Idx → EReal)
    (dw : (⟨2, ![1, 256]⟩ : Shape).Idx → EReal) (db : (⟨2, ![1, 1]⟩ : Shape).Idx → EReal) : Params where
  W0 o q := w0 (ix2 o q)
  b0 o := b0 (ix2 (0 : Fin 1) o)
  W1 o q := w1 (ix2 o q)
  b1 o := b1 (ix2 (0 : Fin 1) o)
  init := init
  G1 l o q := g1w (ix3 l o q)
  g1 l o := g1b (ix2 l o)
  G2 l o q := g2w (ix3 l o q)
  g2 l o := g2b (ix2 l o)
  dw q := dw (ix2 (0 : Fin 1) q)
  db := db (ix2 (0 : Fin 1) (0 : Fin 1))

end Cert.K3Gin

end
-- ==== Proof.RefRead.lean ====
/-
  The reference computation, read at one sample and one node, is the three-node chain of the specification.

  Each stage of the reference is read at explicit coordinates (sample b, node j, feature o) from the
  stage before it: the encoder's two affine layers with their rectifiers, the initial nodes, and, for each
  of the three layers, the sum over the nodes, the gathered input node + (sum - node), and the two affine
  layers with their rectifiers; last the decoder's affine output. Every step is an index computation
  followed by unfolding the specification's definitions.
-/
import proofs.«145630_j54657753809375_2_alg».proof.Proof.Gen.ReferenceIdeal.Read
import proofs.«145630_j54657753809375_2_alg».proof.Proof.Params
import Idealize.ShloMosaic.Lib.ValueIdx
import Idealize.ShloMosaic.PureOps.Ideal.Laws

noncomputable section

namespace Cert.K3Gin.Ref

open Idealize.ShloMosaic Idealize.ShloMosaic.ValueIdx Cert.ReferenceIdeal Cert.ReferenceIdeal.Read
open scoped BigOperators

/-! ## The encoder -/

section Encoder

variable (x0 : (⟨S32768x16, .f32⟩ : BufTy).Contents (Elt Ideal)) (x1 : (⟨S256x16, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal))

/-- The first weight, transposed, at (k, o) is the weight at (o, k). -/
theorem v0_at (k : Fin 16) (o : Fin 256) : val_main_v0 (F := Ideal) x1 (ix2 k o) = x1 (ix2 o k) := by
  rw [val_main_v0_apply]
  exact congrArg x1 (funext fun a => Fin.ext (by match a with | ⟨0, _⟩ => rfl | ⟨1, _⟩ => rfl))

/-- The first product at (b, o): the sample's row against row o of the weight. -/
theorem v1_at (b : Fin 32768) (o : Fin 256) :
    val_main_v1 (F := Ideal) x0 x1 (ix2 b o) = ∑ k : Fin 16, x0 (ix2 b k) * x1 (ix2 o k) := by
  rw [val_main_v1_apply]
  refine Finset.sum_congr rfl fun k _ => ?_
  have hl : lidx_main_v1 (ix2 b o) k = ix2 b k :=
    funext fun a => Fin.ext (by match a with | ⟨0, _⟩ => rfl | ⟨1, _⟩ => rfl)
  have hr : ridx_main_v1 (ix2 b o) k = ix2 k o :=
    funext fun a => Fin.ext (by match a with | ⟨0, _⟩ => rfl | ⟨1, _⟩ => rfl)
  rw [hl, hr, v0_at]

/-- The first bias, broadcast, at (b, o) is the bias at o. -/
theorem v3_at (b : Fin 32768) (o : Fin 256) : val_main_v3 (F := Ideal) x2 (ix2 b o) = x2 (ix1 o) := by
  rw [val_main_v3_apply, val_main_v2_apply]
  exact congrArg x2 (funext fun a => Fin.ext (by match a with | ⟨0, _⟩ => rfl))

/-- The first rectified affine layer at (b, o). -/
theorem v5_at (b : Fin 32768) (o : Fin 256) :
    val_main_v5 (F := Ideal) x0 x1 x2 (ix2 b o)
      = max ((∑ k : Fin 16, x0 (ix2 b k) * x1 (ix2 o k)) + x2 (ix1 o)) 0 := by
  rw [val_main_v5_apply, val_main_v4_apply, val_main_call0_v0_apply, val_main_call0_cst_apply, v1_at, v3_at,
    Ideal.maximumf_def, Ideal.addf_def, Ideal.ofBits_def, Ideal.ofBits_zero_f32]

end Encoder
/-! ## The encoder's second layer, and the initial nodes -/

section Nodes

variable (x0 : (⟨S32768x16, .f32⟩ : BufTy).Contents (Elt Ideal)) (x1 : (⟨S256x16, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S3x256, .f32⟩ : BufTy).Contents (Elt Ideal))
  (x6 : (⟨S3x256x256, .f32⟩ : BufTy).Contents (Elt Ideal)) (x7 : (⟨S3x256, .f32⟩ : BufTy).Contents (Elt Ideal))
  (x8 : (⟨S3x256x256, .f32⟩ : BufTy).Contents (Elt Ideal)) (x9 : (⟨S3x256, .f32⟩ : BufTy).Contents (Elt Ideal))
  (x10 : (⟨S1x256, .f32⟩ : BufTy).Contents (Elt Ideal)) (x11 : (⟨S1, .f32⟩ : BufTy).Contents (Elt Ideal))

local notation "P" => paramsOf x1 x2 x3 x4 x5 x6 x7 x8 x9 x10 x11

/-- The second weight, transposed, at (k, o) is the weight at (o, k). -/
theorem v6_at (k o : Fin 256) : val_main_v6 (F := Ideal) x3 (ix2 k o) = x3 (ix2 o k) := by
  rw [val_main_v6_apply]
  exact congrArg x3 (funext fun a => Fin.ext (by match a with | ⟨0, _⟩ => rfl | ⟨1, _⟩ => rfl))

/-- The second product at (b, o). -/
theorem v7_at (b : Fin 32768) (o : Fin 256) :
    val_main_v7 (F := Ideal) x0 x1 x2 x3 (ix2 b o)
      = ∑ k : Fin 256, val_main_v5 (F := Ideal) x0 x1 x2 (ix2 b k) * x3 (ix2 o k) := by
  rw [val_main_v7_apply]
  refine Finset.sum_congr rfl fun k _ => ?_
  have hl : lidx_main_v7 (ix2 b o) k = ix2 b k :=
    funext fun a => Fin.ext (by match a with | ⟨0, _⟩ => rfl | ⟨1, _⟩ => rfl)
  have hr : ridx_main_v7 (ix2 b o) k = ix2 k o :=
    funext fun a => Fin.ext (by match a with | ⟨0, _⟩ => rfl | ⟨1, _⟩ => rfl)
  rw [hl, hr, v6_at]

/-- The second bias, broadcast, at (b, o) is the bias at o. -/
theorem v9_at (b : Fin 32768) (o : Fin 256) : val_main_v9 (F := Ideal) x4 (ix2 b o) = x4 (ix1 o) := by
  rw [val_main_v9_apply, val_main_v8_apply]
  exact congrArg x4 (funext fun a => Fin.ext (by match a with | ⟨0, _⟩ => rfl))

/-- The encoder's output at (b, o) is the specification's encoder on sample b's row. -/
theorem enc_at (b : Fin 32768) (o : Fin 256) :
    val_main_v11 (F := Ideal) x0 x1 x2 x3 x4 (ix2 b o) = enc P (fun k => x0 (ix2 b k)) o := by
  rw [val_main_v11_apply, val_main_v10_apply, val_main_call1_v0_apply, val_main_call1_cst_apply, v7_at, v9_at,
    Ideal.maximumf_def, Ideal.addf_def, Ideal.ofBits_def, Ideal.ofBits_zero_f32]
  simp only [v5_at]
  rfl

/-- The initial node rows, broadcast over the samples. -/
theorem v14_at (b : Fin 32768) (j : Fin 3) (o : Fin 256) :
    val_main_v14 (F := Ideal) x5 (ix3 b j o) = x5 (ix2 j o) := by
  rw [val_main_v14_apply, val_main_v12_apply]
  exact congrArg x5 (funext fun a => Fin.ext (by match a with | ⟨0, _⟩ => rfl | ⟨1, _⟩ => rfl))

/-- The encoder's output, broadcast over the nodes. -/
theorem v15_at (b : Fin 32768) (j : Fin 3) (o : Fin 256) :
    val_main_v15 (F := Ideal) x0 x1 x2 x3 x4 (ix3 b j o) = val_main_v11 (F := Ideal) x0 x1 x2 x3 x4 (ix2 b o) := by
  rw [val_main_v15_apply, val_main_v13_apply]
  exact congrArg (val_main_v11 (F := Ideal) x0 x1 x2 x3 x4)
    (funext fun a => Fin.ext (by match a with | ⟨0, _⟩ => rfl | ⟨1, _⟩ => rfl))

/-- The nodes before the first layer. -/
theorem nodes0_at (b : Fin 32768) (j : Fin 3) (o : Fin 256) :
    val_main_v16 (F := Ideal) x0 x1 x2 x3 x4 x5 (ix3 b j o) = nodes0 P (fun k => x0 (ix2 b k)) j o := by
  rw [val_main_v16_apply, v14_at, v15_at, enc_at x0 x1 x2 x3 x4 x5 x6 x7 x8 x9 x10 x11, Ideal.addf_def]
  rfl

end Nodes
/-! ## The first layer -/

section Layer0

variable (x0 : (⟨S32768x16, .f32⟩ : BufTy).Contents (Elt Ideal)) (x1 : (⟨S256x16, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S3x256, .f32⟩ : BufTy).Contents (Elt Ideal))
  (x6 : (⟨S3x256x256, .f32⟩ : BufTy).Contents (Elt Ideal)) (x7 : (⟨S3x256, .f32⟩ : BufTy).Contents (Elt Ideal))
  (x8 : (⟨S3x256x256, .f32⟩ : BufTy).Contents (Elt Ideal)) (x9 : (⟨S3x256, .f32⟩ : BufTy).Contents (Elt Ideal))
  (x10 : (⟨S1x256, .f32⟩ : BufTy).Contents (Elt Ideal)) (x11 : (⟨S1, .f32⟩ : BufTy).Contents (Elt Ideal))

local notation "P" => paramsOf x1 x2 x3 x4 x5 x6 x7 x8 x9 x10 x11

/-- The sum of the nodes, from zero, at (b, o). -/
theorem L0_sum_at (b : Fin 32768) (o : Fin 256) :
    val_main_v17 (F := Ideal) x0 x1 x2 x3 x4 x5 (ix2 b o)
      = 0 + ∑ k : Fin 3, val_main_v16 (F := Ideal) x0 x1 x2 x3 x4 x5 (ix3 b k o) := by
  rw [val_main_v17_apply, val_main_cst_apply, Ideal.ofBits_def, Ideal.ofBits_zero_f32]
  refine congrArg (0 + ·) (Finset.sum_congr rfl fun k _ => ?_)
  exact congrArg (val_main_v16 (F := Ideal) x0 x1 x2 x3 x4 x5)
    (funext fun a => Fin.ext (by match a with | ⟨0, _⟩ => rfl | ⟨1, _⟩ => rfl | ⟨2, _⟩ => rfl))

/-- The sum of the nodes, broadcast back over the nodes. -/
theorem L0_sumb_at (b : Fin 32768) (j : Fin 3) (o : Fin 256) :
    val_main_v19 (F := Ideal) x0 x1 x2 x3 x4 x5 (ix3 b j o)
      = val_main_v17 (F := Ideal) x0 x1 x2 x3 x4 x5 (ix2 b o) := by
  rw [val_main_v19_apply, val_main_v18_apply]
  exact congrArg (val_main_v17 (F := Ideal) x0 x1 x2 x3 x4 x5)
    (funext fun a => Fin.ext (by match a with | ⟨0, _⟩ => rfl | ⟨1, _⟩ => rfl))

/-- What node j's MLP receives in this layer: the node plus (the sum of the nodes minus the node). -/
theorem gather0_at (b : Fin 32768) (j : Fin 3) (o : Fin 256) :
    val_main_v21 (F := Ideal) x0 x1 x2 x3 x4 x5 (ix3 b j o)
      = gather (nodes0 P (fun k => x0 (ix2 b k))) j o := by
  rw [val_main_v21_apply, val_main_v20_apply, L0_sumb_at, L0_sum_at, Ideal.addf_def, Ideal.subf_def]
  simp only [nodes0_at x0 x1 x2 x3 x4 x5 x6 x7 x8 x9 x10 x11]
  rfl

/-- This layer's first weight at (o, k). -/
theorem L0_w1_at (o k : Fin 256) : val_main_v23 (F := Ideal) x6 (ix2 o k) = x6 (ix3 (0 : Fin 3) o k) := by
  rw [val_main_v23_apply, val_main_v22_apply]
  have ho := o.isLt
  have hk := k.isLt
  exact congrArg x6 (funext fun a => Fin.ext (by
    match a with
    | ⟨0, _⟩ => rfl
    | ⟨1, _⟩ => show (o.val * 256 + k.val) / 256 % 256 = o.val; omega
    | ⟨2, _⟩ => show (o.val * 256 + k.val) % 256 = k.val; omega))

/-- This layer's first bias, broadcast, at (b, j, o). -/
theorem L0_b1_at (b : Fin 32768) (j : Fin 3) (o : Fin 256) :
    val_main_v28 (F := Ideal) x7 (ix3 b j o) = x7 (ix2 (0 : Fin 3) o) := by
  rw [val_main_v28_apply, val_main_v27_apply, val_main_v26_apply, val_main_v25_apply]
  have ho := o.isLt
  exact congrArg x7 (funext fun a => Fin.ext (by
    match a with
    | ⟨0, _⟩ => rfl
    | ⟨1, _⟩ => show o.val % 256 = o.val; omega))

/-- This layer's first product at (b, j, o). -/
theorem L0_dot1_at (b : Fin 32768) (j : Fin 3) (o : Fin 256) :
    val_main_v24 (F := Ideal) x0 x1 x2 x3 x4 x5 x6 (ix3 b j o)
      = ∑ k : Fin 256, val_main_v21 (F := Ideal) x0 x1 x2 x3 x4 x5 (ix3 b j k) * x6 (ix3 (0 : Fin 3) o k) := by
  rw [val_main_v24_apply]
  refine Finset.sum_congr rfl fun k _ => ?_
  have hl : lidx_main_v24 (ix3 b j o) k = ix3 b j k :=
    funext fun a => Fin.ext (by match a with | ⟨0, _⟩ => rfl | ⟨1, _⟩ => rfl | ⟨2, _⟩ => rfl)
  have hr : ridx_main_v24 (ix3 b j o) k = ix2 o k :=
    funext fun a => Fin.ext (by match a with | ⟨0, _⟩ => rfl | ⟨1, _⟩ => rfl)
  rw [hl, hr, L0_w1_at]

/-- This layer's first rectified affine layer at (b, j, o). -/
theorem L0_hidden_at (b : Fin 32768) (j : Fin 3) (o : Fin 256) :
    val_main_v30 (F := Ideal) x0 x1 x2 x3 x4 x5 x6 x7 (ix3 b j o)
      = relu (affine ((P).G1 0) ((P).g1 0) (gather (nodes0 P (fun k => x0 (ix2 b k))) j)) o := by
  rw [val_main_v30_apply, val_main_v29_apply, val_main_call2_v0_apply, val_main_call2_cst_apply, L0_dot1_at, L0_b1_at,
    Ideal.maximumf_def, Ideal.addf_def, Ideal.ofBits_def, Ideal.ofBits_zero_f32]
  simp only [gather0_at x0 x1 x2 x3 x4 x5 x6 x7 x8 x9 x10 x11]
  rfl

/-- This layer's second weight at (o, k). -/
theorem L0_w2_at (o k : Fin 256) : val_main_v32 (F := Ideal) x8 (ix2 o k) = x8 (ix3 (0 : Fin 3) o k) := by
  rw [val_main_v32_apply, val_main_v31_apply]
  have ho := o.isLt
  have hk := k.isLt
  exact congrArg x8 (funext fun a => Fin.ext (by
    match a with
    | ⟨0, _⟩ => rfl
    | ⟨1, _⟩ => show (o.val * 256 + k.val) / 256 % 256 = o.val; omega
    | ⟨2, _⟩ => show (o.val * 256 + k.val) % 256 = k.val; omega))

/-- This layer's second bias, broadcast, at (b, j, o). -/
theorem L0_b2_at (b : Fin 32768) (j : Fin 3) (o : Fin 256) :
    val_main_v37 (F := Ideal) x9 (ix3 b j o) = x9 (ix2 (0 : Fin 3) o) := by
  rw [val_main_v37_apply, val_main_v36_apply, val_main_v35_apply, val_main_v34_apply]
  have ho := o.isLt
  exact congrArg x9 (funext fun a => Fin.ext (by
    match a with
    | ⟨0, _⟩ => rfl
    | ⟨1, _⟩ => show o.val % 256 = o.val; omega))

/-- This layer's second product at (b, j, o). -/
theorem L0_dot2_at (b : Fin 32768) (j : Fin 3) (o : Fin 256) :
    val_main_v33 (F := Ideal) x0 x1 x2 x3 x4 x5 x6 x7 x8 (ix3 b j o)
      = ∑ k : Fin 256, val_main_v30 (F := Ideal) x0 x1 x2 x3 x4 x5 x6 x7 (ix3 b j k) * x8 (ix3 (0 : Fin 3) o k) := by
  rw [val_main_v33_apply]
  refine Finset.sum_congr rfl fun k _ => ?_
  have hl : lidx_main_v33 (ix3 b j o) k = ix3 b j k :=
    funext fun a => Fin.ext (by match a with | ⟨0, _⟩ => rfl | ⟨1, _⟩ => rfl | ⟨2, _⟩ => rfl)
  have hr : ridx_main_v33 (ix3 b j o) k = ix2 o k :=
    funext fun a => Fin.ext (by match a with | ⟨0, _⟩ => rfl | ⟨1, _⟩ => rfl)
  rw [hl, hr, L0_w2_at]

/-- The nodes after this layer. -/
theorem layer0_at (b : Fin 32768) (j : Fin 3) (o : Fin 256) :
    val_main_v39 (F := Ideal) x0 x1 x2 x3 x4 x5 x6 x7 x8 x9 (ix3 b j o)
      = layer P 0 (nodes0 P (fun k => x0 (ix2 b k))) j o := by
  rw [val_main_v39_apply, val_main_v38_apply, val_main_call3_v0_apply, val_main_call3_cst_apply, L0_dot2_at, L0_b2_at,
    Ideal.maximumf_def, Ideal.addf_def, Ideal.ofBits_def, Ideal.ofBits_zero_f32]
  simp only [L0_hidden_at x0 x1 x2 x3 x4 x5 x6 x7 x8 x9 x10 x11]
  rfl

end Layer0
/-! ## The second layer -/

section Layer1

variable (x0 : (⟨S32768x16, .f32⟩ : BufTy).Contents (Elt Ideal)) (x1 : (⟨S256x16, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S3x256, .f32⟩ : BufTy).Contents (Elt Ideal))
  (x6 : (⟨S3x256x256, .f32⟩ : BufTy).Contents (Elt Ideal)) (x7 : (⟨S3x256, .f32⟩ : BufTy).Contents (Elt Ideal))
  (x8 : (⟨S3x256x256, .f32⟩ : BufTy).Contents (Elt Ideal)) (x9 : (⟨S3x256, .f32⟩ : BufTy).Contents (Elt Ideal))
  (x10 : (⟨S1x256, .f32⟩ : BufTy).Contents (Elt Ideal)) (x11 : (⟨S1, .f32⟩ : BufTy).Contents (Elt Ideal))

local notation "P" => paramsOf x1 x2 x3 x4 x5 x6 x7 x8 x9 x10 x11

/-- The sum of the nodes, from zero, at (b, o). -/
theorem L1_sum_at (b : Fin 32768) (o : Fin 256) :
    val_main_v40 (F := Ideal) x0 x1 x2 x3 x4 x5 x6 x7 x8 x9 (ix2 b o)
      = 0 + ∑ k : Fin 3, val_main_v39 (F := Ideal) x0 x1 x2 x3 x4 x5 x6 x7 x8 x9 (ix3 b k o) := by
  rw [val_main_v40_apply, val_main_cst_0_apply, Ideal.ofBits_def, Ideal.ofBits_zero_f32]
  refine congrArg (0 + ·) (Finset.sum_congr rfl fun k _ => ?_)
  exact congrArg (val_main_v39 (F := Ideal) x0 x1 x2 x3 x4 x5 x6 x7 x8 x9)
    (funext fun a => Fin.ext (by match a with | ⟨0, _⟩ => rfl | ⟨1, _⟩ => rfl | ⟨2, _⟩ => rfl))

/-- The sum of the nodes, broadcast back over the nodes. -/
theorem L1_sumb_at (b : Fin 32768) (j : Fin 3) (o : Fin 256) :
    val_main_v42 (F := Ideal) x0 x1 x2 x3 x4 x5 x6 x7 x8 x9 (ix3 b j o)
      = val_main_v40 (F := Ideal) x0 x1 x2 x3 x4 x5 x6 x7 x8 x9 (ix2 b o) := by
  rw [val_main_v42_apply, val_main_v41_apply]
  exact congrArg (val_main_v40 (F := Ideal) x0 x1 x2 x3 x4 x5 x6 x7 x8 x9)
    (funext fun a => Fin.ext (by match a with | ⟨0, _⟩ => rfl | ⟨1, _⟩ => rfl))

/-- What node j's MLP receives in this layer: the node plus (the sum of the nodes minus the node). -/
theorem gather1_at (b : Fin 32768) (j : Fin 3) (o : Fin 256) :
    val_main_v44 (F := Ideal) x0 x1 x2 x3 x4 x5 x6 x7 x8 x9 (ix3 b j o)
      = gather (layer P 0 (nodes0 P (fun k => x0 (ix2 b k)))) j o := by
  rw [val_main_v44_apply, val_main_v43_apply, L1_sumb_at, L1_sum_at, Ideal.addf_def, Ideal.subf_def]
  simp only [layer0_at x0 x1 x2 x3 x4 x5 x6 x7 x8 x9 x10 x11]
  rfl

/-- This layer's first weight at (o, k). -/
theorem L1_w1_at (o k : Fin 256) : val_main_v46 (F := Ideal) x6 (ix2 o k) = x6 (ix3 (1 : Fin 3) o k) := by
  rw [val_main_v46_apply, val_main_v45_apply]
  have ho := o.isLt
  have hk := k.isLt
  exact congrArg x6 (funext fun a => Fin.ext (by
    match a with
    | ⟨0, _⟩ => rfl
    | ⟨1, _⟩ => show (o.val * 256 + k.val) / 256 % 256 = o.val; omega
    | ⟨2, _⟩ => show (o.val * 256 + k.val) % 256 = k.val; omega))

/-- This layer's first bias, broadcast, at (b, j, o). -/
theorem L1_b1_at (b : Fin 32768) (j : Fin 3) (o : Fin 256) :
    val_main_v51 (F := Ideal) x7 (ix3 b j o) = x7 (ix2 (1 : Fin 3) o) := by
  rw [val_main_v51_apply, val_main_v50_apply, val_main_v49_apply, val_main_v48_apply]
  have ho := o.isLt
  exact congrArg x7 (funext fun a => Fin.ext (by
    match a with
    | ⟨0, _⟩ => rfl
    | ⟨1, _⟩ => show o.val % 256 = o.val; omega))

/-- This layer's first product at (b, j, o). -/
theorem L1_dot1_at (b : Fin 32768) (j : Fin 3) (o : Fin 256) :
    val_main_v47 (F := Ideal) x0 x1 x2 x3 x4 x5 x6 x7 x8 x9 (ix3 b j o)
      = ∑ k : Fin 256, val_main_v44 (F := Ideal) x0 x1 x2 x3 x4 x5 x6 x7 x8 x9 (ix3 b j k) * x6 (ix3 (1 : Fin 3) o k) := by
  rw [val_main_v47_apply]
  refine Finset.sum_congr rfl fun k _ => ?_
  have hl : lidx_main_v47 (ix3 b j o) k = ix3 b j k :=
    funext fun a => Fin.ext (by match a with | ⟨0, _⟩ => rfl | ⟨1, _⟩ => rfl | ⟨2, _⟩ => rfl)
  have hr : ridx_main_v47 (ix3 b j o) k = ix2 o k :=
    funext fun a => Fin.ext (by match a with | ⟨0, _⟩ => rfl | ⟨1, _⟩ => rfl)
  rw [hl, hr, L1_w1_at]

/-- This layer's first rectified affine layer at (b, j, o). -/
theorem L1_hidden_at (b : Fin 32768) (j : Fin 3) (o : Fin 256) :
    val_main_v53 (F := Ideal) x0 x1 x2 x3 x4 x5 x6 x7 x8 x9 (ix3 b j o)
      = relu (affine ((P).G1 1) ((P).g1 1) (gather (layer P 0 (nodes0 P (fun k => x0 (ix2 b k)))) j)) o := by
  rw [val_main_v53_apply, val_main_v52_apply, val_main_call4_v0_apply, val_main_call4_cst_apply, L1_dot1_at, L1_b1_at,
    Ideal.maximumf_def, Ideal.addf_def, Ideal.ofBits_def, Ideal.ofBits_zero_f32]
  simp only [gather1_at x0 x1 x2 x3 x4 x5 x6 x7 x8 x9 x10 x11]
  rfl

/-- This layer's second weight at (o, k). -/
theorem L1_w2_at (o k : Fin 256) : val_main_v55 (F := Ideal) x8 (ix2 o k) = x8 (ix3 (1 : Fin 3) o k) := by
  rw [val_main_v55_apply, val_main_v54_apply]
  have ho := o.isLt
  have hk := k.isLt
  exact congrArg x8 (funext fun a => Fin.ext (by
    match a with
    | ⟨0, _⟩ => rfl
    | ⟨1, _⟩ => show (o.val * 256 + k.val) / 256 % 256 = o.val; omega
    | ⟨2, _⟩ => show (o.val * 256 + k.val) % 256 = k.val; omega))

/-- This layer's second bias, broadcast, at (b, j, o). -/
theorem L1_b2_at (b : Fin 32768) (j : Fin 3) (o : Fin 256) :
    val_main_v60 (F := Ideal) x9 (ix3 b j o) = x9 (ix2 (1 : Fin 3) o) := by
  rw [val_main_v60_apply, val_main_v59_apply, val_main_v58_apply, val_main_v57_apply]
  have ho := o.isLt
  exact congrArg x9 (funext fun a => Fin.ext (by
    match a with
    | ⟨0, _⟩ => rfl
    | ⟨1, _⟩ => show o.val % 256 = o.val; omega))

/-- This layer's second product at (b, j, o). -/
theorem L1_dot2_at (b : Fin 32768) (j : Fin 3) (o : Fin 256) :
    val_main_v56 (F := Ideal) x0 x1 x2 x3 x4 x5 x6 x7 x8 x9 (ix3 b j o)
      = ∑ k : Fin 256, val_main_v53 (F := Ideal) x0 x1 x2 x3 x4 x5 x6 x7 x8 x9 (ix3 b j k) * x8 (ix3 (1 : Fin 3) o k) := by
  rw [val_main_v56_apply]
  refine Finset.sum_congr rfl fun k _ => ?_
  have hl : lidx_main_v56 (ix3 b j o) k = ix3 b j k :=
    funext fun a => Fin.ext (by match a with | ⟨0, _⟩ => rfl | ⟨1, _⟩ => rfl | ⟨2, _⟩ => rfl)
  have hr : ridx_main_v56 (ix3 b j o) k = ix2 o k :=
    funext fun a => Fin.ext (by match a with | ⟨0, _⟩ => rfl | ⟨1, _⟩ => rfl)
  rw [hl, hr, L1_w2_at]

/-- The nodes after this layer. -/
theorem layer1_at (b : Fin 32768) (j : Fin 3) (o : Fin 256) :
    val_main_v62 (F := Ideal) x0 x1 x2 x3 x4 x5 x6 x7 x8 x9 (ix3 b j o)
      = layer P 1 (layer P 0 (nodes0 P (fun k => x0 (ix2 b k)))) j o := by
  rw [val_main_v62_apply, val_main_v61_apply, val_main_call5_v0_apply, val_main_call5_cst_apply, L1_dot2_at, L1_b2_at,
    Ideal.maximumf_def, Ideal.addf_def, Ideal.ofBits_def, Ideal.ofBits_zero_f32]
  simp only [L1_hidden_at x0 x1 x2 x3 x4 x5 x6 x7 x8 x9 x10 x11]
  rfl

end Layer1
/-! ## The third layer -/

section Layer2

variable (x0 : (⟨S32768x16, .f32⟩ : BufTy).Contents (Elt Ideal)) (x1 : (⟨S256x16, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S3x256, .f32⟩ : BufTy).Contents (Elt Ideal))
  (x6 : (⟨S3x256x256, .f32⟩ : BufTy).Contents (Elt Ideal)) (x7 : (⟨S3x256, .f32⟩ : BufTy).Contents (Elt Ideal))
  (x8 : (⟨S3x256x256, .f32⟩ : BufTy).Contents (Elt Ideal)) (x9 : (⟨S3x256, .f32⟩ : BufTy).Contents (Elt Ideal))
  (x10 : (⟨S1x256, .f32⟩ : BufTy).Contents (Elt Ideal)) (x11 : (⟨S1, .f32⟩ : BufTy).Contents (Elt Ideal))

local notation "P" => paramsOf x1 x2 x3 x4 x5 x6 x7 x8 x9 x10 x11

/-- The sum of the nodes, from zero, at (b, o). -/
theorem L2_sum_at (b : Fin 32768) (o : Fin 256) :
    val_main_v63 (F := Ideal) x0 x1 x2 x3 x4 x5 x6 x7 x8 x9 (ix2 b o)
      = 0 + ∑ k : Fin 3, val_main_v62 (F := Ideal) x0 x1 x2 x3 x4 x5 x6 x7 x8 x9 (ix3 b k o) := by
  rw [val_main_v63_apply, val_main_cst_1_apply, Ideal.ofBits_def, Ideal.ofBits_zero_f32]
  refine congrArg (0 + ·) (Finset.sum_congr rfl fun k _ => ?_)
  exact congrArg (val_main_v62 (F := Ideal) x0 x1 x2 x3 x4 x5 x6 x7 x8 x9)
    (funext fun a => Fin.ext (by match a with | ⟨0, _⟩ => rfl | ⟨1, _⟩ => rfl | ⟨2, _⟩ => rfl))

/-- The sum of the nodes, broadcast back over the nodes. -/
theorem L2_sumb_at (b : Fin 32768) (j : Fin 3) (o : Fin 256) :
    val_main_v65 (F := Ideal) x0 x1 x2 x3 x4 x5 x6 x7 x8 x9 (ix3 b j o)
      = val_main_v63 (F := Ideal) x0 x1 x2 x3 x4 x5 x6 x7 x8 x9 (ix2 b o) := by
  rw [val_main_v65_apply, val_main_v64_apply]
  exact congrArg (val_main_v63 (F := Ideal) x0 x1 x2 x3 x4 x5 x6 x7 x8 x9)
    (funext fun a => Fin.ext (by match a with | ⟨0, _⟩ => rfl | ⟨1, _⟩ => rfl))

/-- What node j's MLP receives in this layer: the node plus (the sum of the nodes minus the node). -/
theorem gather2_at (b : Fin 32768) (j : Fin 3) (o : Fin 256) :
    val_main_v67 (F := Ideal) x0 x1 x2 x3 x4 x5 x6 x7 x8 x9 (ix3 b j o)
      = gather (layer P 1 (layer P 0 (nodes0 P (fun k => x0 (ix2 b k))))) j o := by
  rw [val_main_v67_apply, val_main_v66_apply, L2_sumb_at, L2_sum_at, Ideal.addf_def, Ideal.subf_def]
  simp only [layer1_at x0 x1 x2 x3 x4 x5 x6 x7 x8 x9 x10 x11]
  rfl

/-- This layer's first weight at (o, k). -/
theorem L2_w1_at (o k : Fin 256) : val_main_v69 (F := Ideal) x6 (ix2 o k) = x6 (ix3 (2 : Fin 3) o k) := by
  rw [val_main_v69_apply, val_main_v68_apply]
  have ho := o.isLt
  have hk := k.isLt
  exact congrArg x6 (funext fun a => Fin.ext (by
    match a with
    | ⟨0, _⟩ => rfl
    | ⟨1, _⟩ => show (o.val * 256 + k.val) / 256 % 256 = o.val; omega
    | ⟨2, _⟩ => show (o.val * 256 + k.val) % 256 = k.val; omega))

/-- This layer's first bias, broadcast, at (b, j, o). -/
theorem L2_b1_at (b : Fin 32768) (j : Fin 3) (o : Fin 256) :
    val_main_v74 (F := Ideal) x7 (ix3 b j o) = x7 (ix2 (2 : Fin 3) o) := by
  rw [val_main_v74_apply, val_main_v73_apply, val_main_v72_apply, val_main_v71_apply]
  have ho := o.isLt
  exact congrArg x7 (funext fun a => Fin.ext (by
    match a with
    | ⟨0, _⟩ => rfl
    | ⟨1, _⟩ => show o.val % 256 = o.val; omega))

/-- This layer's first product at (b, j, o). -/
theorem L2_dot1_at (b : Fin 32768) (j : Fin 3) (o : Fin 256) :
    val_main_v70 (F := Ideal) x0 x1 x2 x3 x4 x5 x6 x7 x8 x9 (ix3 b j o)
      = ∑ k : Fin 256, val_main_v67 (F := Ideal) x0 x1 x2 x3 x4 x5 x6 x7 x8 x9 (ix3 b j k) * x6 (ix3 (2 : Fin 3) o k) := by
  rw [val_main_v70_apply]
  refine Finset.sum_congr rfl fun k _ => ?_
  have hl : lidx_main_v70 (ix3 b j o) k = ix3 b j k :=
    funext fun a => Fin.ext (by match a with | ⟨0, _⟩ => rfl | ⟨1, _⟩ => rfl | ⟨2, _⟩ => rfl)
  have hr : ridx_main_v70 (ix3 b j o) k = ix2 o k :=
    funext fun a => Fin.ext (by match a with | ⟨0, _⟩ => rfl | ⟨1, _⟩ => rfl)
  rw [hl, hr, L2_w1_at]

/-- This layer's first rectified affine layer at (b, j, o). -/
theorem L2_hidden_at (b : Fin 32768) (j : Fin 3) (o : Fin 256) :
    val_main_v76 (F := Ideal) x0 x1 x2 x3 x4 x5 x6 x7 x8 x9 (ix3 b j o)
      = relu (affine ((P).G1 2) ((P).g1 2) (gather (layer P 1 (layer P 0 (nodes0 P (fun k => x0 (ix2 b k))))) j)) o := by
  rw [val_main_v76_apply, val_main_v75_apply, val_main_call6_v0_apply, val_main_call6_cst_apply, L2_dot1_at, L2_b1_at,
    Ideal.maximumf_def, Ideal.addf_def, Ideal.ofBits_def, Ideal.ofBits_zero_f32]
  simp only [gather2_at x0 x1 x2 x3 x4 x5 x6 x7 x8 x9 x10 x11]
  rfl

/-- This layer's second weight at (o, k). -/
theorem L2_w2_at (o k : Fin 256) : val_main_v78 (F := Ideal) x8 (ix2 o k) = x8 (ix3 (2 : Fin 3) o k) := by
  rw [val_main_v78_apply, val_main_v77_apply]
  have ho := o.isLt
  have hk := k.isLt
  exact congrArg x8 (funext fun a => Fin.ext (by
    match a with
    | ⟨0, _⟩ => rfl
    | ⟨1, _⟩ => show (o.val * 256 + k.val) / 256 % 256 = o.val; omega
    | ⟨2, _⟩ => show (o.val * 256 + k.val) % 256 = k.val; omega))

/-- This layer's second bias, broadcast, at (b, j, o). -/
theorem L2_b2_at (b : Fin 32768) (j : Fin 3) (o : Fin 256) :
    val_main_v83 (F := Ideal) x9 (ix3 b j o) = x9 (ix2 (2 : Fin 3) o) := by
  rw [val_main_v83_apply, val_main_v82_apply, val_main_v81_apply, val_main_v80_apply]
  have ho := o.isLt
  exact congrArg x9 (funext fun a => Fin.ext (by
    match a with
    | ⟨0, _⟩ => rfl
    | ⟨1, _⟩ => show o.val % 256 = o.val; omega))

/-- This layer's second product at (b, j, o). -/
theorem L2_dot2_at (b : Fin 32768) (j : Fin 3) (o : Fin 256) :
    val_main_v79 (F := Ideal) x0 x1 x2 x3 x4 x5 x6 x7 x8 x9 (ix3 b j o)
      = ∑ k : Fin 256, val_main_v76 (F := Ideal) x0 x1 x2 x3 x4 x5 x6 x7 x8 x9 (ix3 b j k) * x8 (ix3 (2 : Fin 3) o k) := by
  rw [val_main_v79_apply]
  refine Finset.sum_congr rfl fun k _ => ?_
  have hl : lidx_main_v79 (ix3 b j o) k = ix3 b j k :=
    funext fun a => Fin.ext (by match a with | ⟨0, _⟩ => rfl | ⟨1, _⟩ => rfl | ⟨2, _⟩ => rfl)
  have hr : ridx_main_v79 (ix3 b j o) k = ix2 o k :=
    funext fun a => Fin.ext (by match a with | ⟨0, _⟩ => rfl | ⟨1, _⟩ => rfl)
  rw [hl, hr, L2_w2_at]

/-- The nodes after this layer. -/
theorem layer2_at (b : Fin 32768) (j : Fin 3) (o : Fin 256) :
    val_main_v85 (F := Ideal) x0 x1 x2 x3 x4 x5 x6 x7 x8 x9 (ix3 b j o)
      = layer P 2 (layer P 1 (layer P 0 (nodes0 P (fun k => x0 (ix2 b k))))) j o := by
  rw [val_main_v85_apply, val_main_v84_apply, val_main_call7_v0_apply, val_main_call7_cst_apply, L2_dot2_at, L2_b2_at,
    Ideal.maximumf_def, Ideal.addf_def, Ideal.ofBits_def, Ideal.ofBits_zero_f32]
  simp only [L2_hidden_at x0 x1 x2 x3 x4 x5 x6 x7 x8 x9 x10 x11]
  rfl

end Layer2
/-! ## The decoder -/

section Decoder

variable (x0 : (⟨S32768x16, .f32⟩ : BufTy).Contents (Elt Ideal)) (x1 : (⟨S256x16, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S3x256, .f32⟩ : BufTy).Contents (Elt Ideal))
  (x6 : (⟨S3x256x256, .f32⟩ : BufTy).Contents (Elt Ideal)) (x7 : (⟨S3x256, .f32⟩ : BufTy).Contents (Elt Ideal))
  (x8 : (⟨S3x256x256, .f32⟩ : BufTy).Contents (Elt Ideal)) (x9 : (⟨S3x256, .f32⟩ : BufTy).Contents (Elt Ideal))
  (x10 : (⟨S1x256, .f32⟩ : BufTy).Contents (Elt Ideal)) (x11 : (⟨S1, .f32⟩ : BufTy).Contents (Elt Ideal))

local notation "P" => paramsOf x1 x2 x3 x4 x5 x6 x7 x8 x9 x10 x11

/-- The decoder's product at (b, j, 0). -/
theorem dec_dot_at (b : Fin 32768) (j : Fin 3) :
    val_main_v86 (F := Ideal) x0 x1 x2 x3 x4 x5 x6 x7 x8 x9 x10 (ix3 b j (0 : Fin 1))
      = ∑ k : Fin 256, val_main_v85 (F := Ideal) x0 x1 x2 x3 x4 x5 x6 x7 x8 x9 (ix3 b j k) * x10 (ix2 (0 : Fin 1) k) := by
  rw [val_main_v86_apply]
  refine Finset.sum_congr rfl fun k _ => ?_
  have hl : lidx_main_v86 (ix3 b j (0 : Fin 1)) k = ix3 b j k :=
    funext fun a => Fin.ext (by match a with | ⟨0, _⟩ => rfl | ⟨1, _⟩ => rfl | ⟨2, _⟩ => rfl)
  have hr : ridx_main_v86 (ix3 b j (0 : Fin 1)) k = ix2 (0 : Fin 1) k :=
    funext fun a => Fin.ext (by match a with | ⟨0, _⟩ => rfl | ⟨1, _⟩ => rfl)
  rw [hl, hr]

/-- The decoder's bias, broadcast, at (b, j, 0). -/
theorem dec_bias_at (b : Fin 32768) (j : Fin 3) :
    val_main_v88 (F := Ideal) x11 (ix3 b j (0 : Fin 1)) = x11 (ix1 (0 : Fin 1)) := by
  rw [val_main_v88_apply, val_main_v87_apply]
  exact congrArg x11 (funext fun a => Fin.ext (by match a with | ⟨0, _⟩ => rfl))

/-- Dropping the last axis of size one: the entry (b, j) is the entry (b, j, 0). -/
theorem dec_out_at (b : Fin 32768) (j : Fin 3) :
    val_main_v90 (F := Ideal) x0 x1 x2 x3 x4 x5 x6 x7 x8 x9 x10 x11 (ix2 b j)
      = val_main_v89 (F := Ideal) x0 x1 x2 x3 x4 x5 x6 x7 x8 x9 x10 x11 (ix3 b j (0 : Fin 1)) := by
  rw [val_main_v90_apply]
  have hb := b.isLt
  have hj := j.isLt
  exact congrArg (val_main_v89 (F := Ideal) x0 x1 x2 x3 x4 x5 x6 x7 x8 x9 x10 x11) (funext fun a => Fin.ext (by
    match a with
    | ⟨0, _⟩ => show (b.val * 3 + j.val) / 3 = b.val; omega
    | ⟨1, _⟩ => show (b.val * 3 + j.val) / 1 % 3 = j.val; omega
    | ⟨2, _⟩ => rfl))

end Decoder

/-- The reference's output at sample b and node j is node j's prediction in the three-node chain, on the
    parameters read off the reference's arguments and sample b's row. -/
theorem reference_read
    (x0 : (⟨S32768x16, .f32⟩ : BufTy).Contents (Elt Ideal)) (x1 : (⟨S256x16, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x5 : (⟨S3x256, .f32⟩ : BufTy).Contents (Elt Ideal))
    (x6 : (⟨S3x256x256, .f32⟩ : BufTy).Contents (Elt Ideal)) (x7 : (⟨S3x256, .f32⟩ : BufTy).Contents (Elt Ideal))
    (x8 : (⟨S3x256x256, .f32⟩ : BufTy).Contents (Elt Ideal)) (x9 : (⟨S3x256, .f32⟩ : BufTy).Contents (Elt Ideal))
    (x10 : (⟨S1x256, .f32⟩ : BufTy).Contents (Elt Ideal)) (x11 : (⟨S1, .f32⟩ : BufTy).Contents (Elt Ideal))
    (b : Fin 32768) (j : Fin 3) :
    val_main_v90 (F := Ideal) x0 x1 x2 x3 x4 x5 x6 x7 x8 x9 x10 x11 (ix2 b j)
      = Cert.K3Gin.perNode (Cert.K3Gin.paramsOf x1 x2 x3 x4 x5 x6 x7 x8 x9 x10 x11) (fun k => x0 (ix2 b k)) j := by
  rw [dec_out_at, val_main_v89_apply, dec_dot_at, dec_bias_at, Ideal.addf_def]
  simp only [layer2_at x0 x1 x2 x3 x4 x5 x6 x7 x8 x9 x10 x11]
  rfl

end Cert.K3Gin.Ref

end
-- ==== Proof.PreFinite.lean ====
/-
  The precondition finite_inputs read back. It states, for each of the twelve argument arrays, that every entry x
  has |x| < +∞, and takes the conjunction of the twelve. On the extended reals |x| = max x (-x), and
  max x (-x) < ⊤ excludes both ⊤ and ⊥, so the entry is a real number. The result: under the precondition
  every entry of every argument array is a real.
-/
import proofs.«145630_j54657753809375_2_alg».proof.Pre_finite_inputs
import proofs.«145630_j54657753809375_2_alg».proof.Proof.Gen.Pre_finite_inputs
import proofs.«145630_j54657753809375_2_alg».proof.Proof.Spec
import Idealize.ShloMosaic.Lib.ReduceAll
import Idealize.ShloMosaic.Lib.ValueIdx
import Idealize.ShloMosaic.PureOps.Ideal.Laws

noncomputable section

namespace Cert.K3Gin.Pre

open Idealize.ShloMosaic Cert.Pre_finite_inputs

/-- The scalar shape has exactly one index. -/
instance : Subsingleton S_.Idx := ⟨fun a b => funext fun d => d.elim0⟩

/-- The f32 pattern with all exponent bits set, sign and fraction zero, denotes +∞. -/
theorem ofBits_inf : Ideal.ofBits .f32 0x7F800000#32 = (⊤ : EReal) := by
  simp [Ideal.ofBits, Ideal.ieee]

/-- A one-bit word made from a Boolean is 1 exactly when the Boolean is true. -/
theorem ofBool_eq_one (b : Bool) : BitVec.ofBool b = 1#1 ↔ b = true := by
  cases b <;> decide

/-- An extended real whose absolute value max a (-a) lies strictly below ⊤ is a real: ⊤ fails at once, and
    ⊥ fails because -⊥ = ⊤. -/
theorem isFin_of_abs_lt_top (a : EReal) (h : max a (-a) < ⊤) : IsFin a := by
  induction a using EReal.rec with
  | bot => simp at h
  | top => simp at h
  | coe r => exact ⟨r, rfl⟩

/-- THE ELEMENT FACT: if the comparison |a| < +∞ gives the bit 1, then a is a real. -/
theorem isFin_of_bit (a : Ideal .f32)
    (h : FloatOps.cmpf .olt (FloatOps.hostAbsf a) (FloatOps.ofBits (F := Ideal) .f32 0x7F800000#32) = 1#1) :
    IsFin a := by
  have h' : Ideal.cmp .olt (max a (-a)) (Ideal.ofBits .f32 0x7F800000#32) = 1#1 := h
  rw [ofBits_inf] at h'
  unfold Ideal.cmp at h'
  rw [ofBool_eq_one] at h'
  exact isFin_of_abs_lt_top a (of_decide_eq_true h')

/-- ONE ARRAY: if the conjunction over all entries of the bits |x i| < +∞ is 1, every entry of x is a real. The
    conjunction over all axes has one index, so each entry's bit is 1; the broadcast constant reads +∞
    at every index. -/
theorem all_fin {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ValueIdx.ix0 = 1#1) (i : s.Idx) : IsFin (x i) :=
  isFin_of_bit (x i) (Host.reduce_andi_all _ _ hr hu _ e i)

/-- A conjunction of two one-bit scalars that is 1 has both bits 1. -/
theorem and_split {s : Shape} (A B : IVec s 1) (j : s.Idx) (e : andi A B j = 1#1) : A j = 1#1 ∧ B j = 1#1 :=
  IntOp.andi_eq_one.1 e

/-- THE PRECONDITION DECODED: the predicate's one bit is the conjunction, left to right, of the twelve arrays' bits;
    being 1, each of the twelve is 1, and each array's entries are reals by all_fin. -/
theorem entries_fin [Cert.Pre_finite_inputs.Facts]
    (x0 : FVec Ideal S32768x16 .f32) (x1 : FVec Ideal S256x16 .f32) (x2 : FVec Ideal S256 .f32)
    (x3 : FVec Ideal S256x256 .f32) (x4 : FVec Ideal S256 .f32) (x5 : FVec Ideal S3x256 .f32)
    (x6 : FVec Ideal S3x256x256 .f32) (x7 : FVec Ideal S3x256 .f32) (x8 : FVec Ideal S3x256x256 .f32)
    (x9 : FVec Ideal S3x256 .f32) (x10 : FVec Ideal S1x256 .f32) (x11 : FVec Ideal S1 .f32)
    (h : Cert.Pre_finite_inputs.fn (F := Ideal) x0 x1 x2 x3 x4 x5 x6 x7 x8 x9 x10 x11 = fun _ => 1#1) :
    (∀ i, Cert.K3Gin.IsFin (x0 i)) ∧ (∀ i, Cert.K3Gin.IsFin (x1 i)) ∧ (∀ i, Cert.K3Gin.IsFin (x2 i)) ∧
    (∀ i, Cert.K3Gin.IsFin (x3 i)) ∧ (∀ i, Cert.K3Gin.IsFin (x4 i)) ∧ (∀ i, Cert.K3Gin.IsFin (x5 i)) ∧
    (∀ i, Cert.K3Gin.IsFin (x6 i)) ∧ (∀ i, Cert.K3Gin.IsFin (x7 i)) ∧ (∀ i, Cert.K3Gin.IsFin (x8 i)) ∧
    (∀ i, Cert.K3Gin.IsFin (x9 i)) ∧ (∀ i, Cert.K3Gin.IsFin (x10 i)) ∧ (∀ i, Cert.K3Gin.IsFin (x11 i)) := by
  have e := congrFun h ValueIdx.ix0
  dsimp only [fn, fn_part1, fn_part2, fn_part3] at e
  obtain ⟨e, e11⟩ := and_split _ _ _ e
  obtain ⟨e, e10⟩ := and_split _ _ _ e
  obtain ⟨e, e9⟩ := and_split _ _ _ e
  obtain ⟨e, e8⟩ := and_split _ _ _ e
  obtain ⟨e, e7⟩ := and_split _ _ _ e
  obtain ⟨e, e6⟩ := and_split _ _ _ e
  obtain ⟨e, e5⟩ := and_split _ _ _ e
  obtain ⟨e, e4⟩ := and_split _ _ _ e
  obtain ⟨e, e3⟩ := and_split _ _ _ e
  obtain ⟨e, e2⟩ := and_split _ _ _ e
  obtain ⟨e0, e1⟩ := and_split _ _ _ e
  exact ⟨all_fin x0 _ _ _ e0, all_fin x1 _ _ _ e1, all_fin x2 _ _ _ e2, all_fin x3 _ _ _ e3,
    all_fin x4 _ _ _ e4, all_fin x5 _ _ _ e5, all_fin x6 _ _ _ e6, all_fin x7 _ _ _ e7,
    all_fin x8 _ _ _ e8, all_fin x9 _ _ _ e9, all_fin x10 _ _ _ e10, all_fin x11 _ _ _ e11⟩

end Cert.K3Gin.Pre

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.KernelLayers.lean ====
/-
  The kernel body's operations, read a row at a time.

  The body works on a tile of rows. Each of its dense layers multiplies the tile by a transposed weight matrix
  into a zero accumulator and adds a one-row bias broadcast down the tile; on the extended reals row p of the
  result is the affine layer of Spec applied to row p of the input, with weight entry (o, q) the matrix's and
  bias entry o the row's. A comparison with a zero splat is the rectifier on the row, a product with a splat of
  the word 0x40400000 is three times the row. A weight stacked over layers is loaded one slab at a time: the
  slab at offset l, read at (0, o, q), is the stack at (l, o, q), and likewise for the stacked biases.
-/
import proofs.«145630_j54657753809375_2_alg».proof.Proof.Spec
import proofs.«145630_j54657753809375_2_alg».proof.Proof.LibPlainMatmul
import Idealize.ShloMosaic.Lib.ValueLayout
import Idealize.ShloMosaic.Lib.ValueIdx
import Idealize.ShloMosaic.Lib.Pipeline.FrameBody
import Idealize.ShloMosaic.PureOps.Ideal.Laws

noncomputable section

namespace Cert.K3Gin

open Idealize.ShloMosaic Idealize.ShloMosaic.ValueIdx
open scoped BigOperators

/-- Row p of a matrix of extended reals. -/
def rowOf {M n : ℕ} (v : (⟨2, ![M, n]⟩ : Shape).Idx → EReal) (p : Fin M) : Fin n → EReal := fun q => v (ix2 p q)

/-- A matrix by its entries. -/
def matOf {n k : ℕ} (w : (⟨2, ![n, k]⟩ : Shape).Idx → EReal) : Fin n → Fin k → EReal := fun o q => w (ix2 o q)

/-- The one slab of a [1, n, k] array, by its entries. -/
def slabOf {n k : ℕ} (w : (⟨3, ![1, n, k]⟩ : Shape).Idx → EReal) : Fin n → Fin k → EReal := fun o q => w (ix3 (0 : Fin 1) o q)

/-! ## Literals -/

theorem zero_word : (FloatOps.ofBits (F := Ideal) .f32 0x00000000#32 : EReal) = 0 := by
  show Ideal.ofBits .f32 0x00000000#32 = 0
  exact Ideal.ofBits_zero_f32

theorem three_word : (FloatOps.ofBits (F := Ideal) .f32 0x40400000#32 : EReal) = 3 := by
  show Ideal.ofBits .f32 0x40400000#32 = 3
  rw [show (3 : EReal) = ((3 : ℝ) : EReal) from rfl]
  simp [Ideal.ofBits, Ideal.ieee, -EReal.coe_mul]; norm_num

/-! ## Products, biases, the rectifier, the scaling -/

/-- Row p of (tile, narrowed) times (weight, transposed) into zero: entry c is the sum over k of row entry k times
    weight entry (c, k). -/
theorem matmulT_row {M K N : ℕ} (d : DotDims ⟨2, ![M, K]⟩ ⟨2, ![K, N]⟩ ⟨2, ![M, N]⟩) (hd : d = DotDims.plain M K N)
    (h : FVec Ideal ⟨2, ![M, K]⟩ .f32) (hlt : FTy.bf16.bits < FTy.f32.bits) (w : FVec Ideal ⟨2, ![N, K]⟩ .bf16)
    (ht : (⟨2, ![N, K]⟩ : Shape).Transposes [1, 0] ⟨2, ![K, N]⟩) (p : Fin M) :
    rowOf (matmul d none (truncf .bf16 h hlt) (transpose ⟨2, ![K, N]⟩ [1, 0] w ht)
        (constant (F := Ideal) ⟨2, ![M, N]⟩ .f32 0x00000000#32)) p
      = fun c => ∑ k : Fin K, rowOf h p k * matOf w c k := by
  subst hd
  funext c
  unfold rowOf matOf
  rw [Cert.LibPlainMatmul.matmul_zero_apply]
  refine Finset.sum_congr rfl fun k _ => ?_
  rw [truncf_apply, transpose_ix2_apply]

/-- The same against a right operand already transposed, the left one already narrow. -/
theorem matmul_row {M K N : ℕ} {φ₁ φ₂ : FTy} (d : DotDims ⟨2, ![M, K]⟩ ⟨2, ![K, N]⟩ ⟨2, ![M, N]⟩) (hd : d = DotDims.plain M K N)
    (h : FVec Ideal ⟨2, ![M, K]⟩ φ₁) (wT : FVec Ideal ⟨2, ![K, N]⟩ φ₂) (p : Fin M) :
    rowOf (matmul d none h wT (constant (F := Ideal) ⟨2, ![M, N]⟩ .f32 0x00000000#32)) p
      = fun c => ∑ k : Fin K, rowOf h p k * wT (ix2 k c) := by
  subst hd
  funext c
  unfold rowOf
  rw [Cert.LibPlainMatmul.matmul_zero_apply]

/-- Adding a one-row bias broadcast down the tile adds the bias row to every row. -/
theorem bias_row {M N : ℕ} (v : FVec Ideal ⟨2, ![M, N]⟩ .f32) (b : FVec Ideal ⟨2, ![1, N]⟩ .f32)
    (hb : (⟨2, ![1, N]⟩ : Shape).Broadcasts ⟨2, ![M, N]⟩) (p : Fin M) :
    rowOf (addf v (broadcastTo ⟨2, ![M, N]⟩ b hb)) p = fun c => rowOf v p c + rowOf b 0 c := by
  funext c
  unfold rowOf
  rw [addf_apply, broadcastTo_1b_ab_apply]

/-- A dense layer of the body is the affine layer of its row. -/
theorem dense_row {M K N : ℕ} (d : DotDims ⟨2, ![M, K]⟩ ⟨2, ![K, N]⟩ ⟨2, ![M, N]⟩) (hd : d = DotDims.plain M K N)
    (h : FVec Ideal ⟨2, ![M, K]⟩ .f32) (hlt : FTy.bf16.bits < FTy.f32.bits) (w : FVec Ideal ⟨2, ![N, K]⟩ .bf16)
    (ht : (⟨2, ![N, K]⟩ : Shape).Transposes [1, 0] ⟨2, ![K, N]⟩)
    (b : FVec Ideal ⟨2, ![1, N]⟩ .f32) (hb : (⟨2, ![1, N]⟩ : Shape).Broadcasts ⟨2, ![M, N]⟩) (p : Fin M) :
    rowOf (addf (matmul d none (truncf .bf16 h hlt) (transpose ⟨2, ![K, N]⟩ [1, 0] w ht)
        (constant (F := Ideal) ⟨2, ![M, N]⟩ .f32 0x00000000#32)) (broadcastTo ⟨2, ![M, N]⟩ b hb)) p
      = affine (matOf w) (rowOf b 0) (rowOf h p) := by
  rw [bias_row, matmulT_row d hd]
  rfl

/-- The maximum with a zero splat is the rectifier of the row. -/
theorem relu_row {M N : ℕ} (v : FVec Ideal ⟨2, ![M, N]⟩ .f32) (p : Fin M) :
    rowOf (maximumf v (broadcast ⟨2, ![M, N]⟩ (FloatOps.ofBits (F := Ideal) .f32 0x00000000#32))) p = relu (rowOf v p) := by
  funext c
  unfold rowOf relu
  rw [maximumf_apply, broadcast_apply, zero_word]

/-- The product with a splat of the word of 3 is three times the row. -/
theorem triple_row {M N : ℕ} (v : FVec Ideal ⟨2, ![M, N]⟩ .f32) (p : Fin M) :
    rowOf (mulf (broadcast ⟨2, ![M, N]⟩ (FloatOps.ofBits (F := Ideal) .f32 0x40400000#32)) v) p = fun c => 3 * rowOf v p c := by
  funext c
  unfold rowOf
  rw [mulf_apply, broadcast_apply, three_word]

/-- Narrowing the float format changes no row. -/
theorem truncf_row {M N : ℕ} (v : FVec Ideal ⟨2, ![M, N]⟩ .f32) (hlt : FTy.bf16.bits < FTy.f32.bits) (p : Fin M) :
    rowOf (truncf .bf16 v hlt) p = rowOf v p := rfl

/-! ## Layout casts -/

/-- A [1, n, k] slab cast to [n, k] has the slab's entries. -/
theorem matOf_dropUnit {n k : ℕ} (x : (⟨3, ![1, n, k]⟩ : Shape).Idx → EReal)
    (h : (⟨3, ![1, n, k]⟩ : Shape).ShapeCasts ⟨2, ![n, k]⟩) : matOf (shapeCast ⟨2, ![n, k]⟩ x h) = slabOf x := by
  funext o q
  unfold matOf slabOf
  rw [shapeCast_1ab_ab_apply]

/-- A one-row matrix cast to a vector and back is the same row. -/
theorem rowOf_vec_roundtrip {n : ℕ} (x : (⟨2, ![1, n]⟩ : Shape).Idx → EReal)
    (h1 : (⟨2, ![1, n]⟩ : Shape).ShapeCasts ⟨1, ![n]⟩) (h2 : (⟨1, ![n]⟩ : Shape).ShapeCasts ⟨2, ![1, n]⟩) :
    rowOf (shapeCast ⟨2, ![1, n]⟩ (shapeCast ⟨1, ![n]⟩ x h1) h2) 0 = rowOf x 0 := by
  funext c
  unfold rowOf
  rw [shapeCast_a_1a_apply, shapeCast_1a_a_apply]

/-- Entry (k, c) of a transposed [n, k] matrix is entry (c, k). -/
theorem transpose_entry {n k : ℕ} (w : (⟨2, ![n, k]⟩ : Shape).Idx → EReal)
    (ht : (⟨2, ![n, k]⟩ : Shape).Transposes [1, 0] ⟨2, ![k, n]⟩) (q : Fin k) (c : Fin n) :
    transpose ⟨2, ![k, n]⟩ [1, 0] w ht (ix2 q c) = matOf w c q := transpose_ix2_apply w ht q c

/-! ## Slab loads -/

/-- The slab of a stacked [L, n, k] array loaded at layer offset l, read at (0, o, q), is the stack at (l, o, q). -/
theorem ld_slab {L n k : ℕ} {e : EltTy} (X : (⟨3, ![L, n, k]⟩ : Shape).Idx → Elt Ideal e) (l : ℕ) (hl : l < L)
    (inb : ∀ a, (![l, 0, 0] : Fin 3 → ℕ) a + (⟨3, ![1, n, k]⟩ : Shape).size a ≤ (⟨3, ![L, n, k]⟩ : Shape).size a)
    (o : Fin n) (q : Fin k) :
    View.ld X (Rect.unit (s := ⟨3, ![L, n, k]⟩) ![l, 0, 0] (⟨3, ![1, n, k]⟩ : Shape).size inb) (ix3 (0 : Fin 1) o q)
      = X (ix3 ⟨l, hl⟩ o q) := by
  show X ((Rect.unit (s := ⟨3, ![L, n, k]⟩) ![l, 0, 0] (⟨3, ![1, n, k]⟩ : Shape).size inb).idx (ix3 (0 : Fin 1) o q)) = _
  refine congrArg X (funext fun a => Fin.ext ?_)
  match a with
  | ⟨0, _⟩ => show l + 1 * 0 = l; omega
  | ⟨1, _⟩ => show 0 + 1 * o.val = o.val; omega
  | ⟨2, _⟩ => show 0 + 1 * q.val = q.val; omega

/-- The row of a stacked [L, n] array loaded at layer offset l, read at (0, o), is the stack at (l, o). -/
theorem ld_row {L n : ℕ} {e : EltTy} (X : (⟨2, ![L, n]⟩ : Shape).Idx → Elt Ideal e) (l : ℕ) (hl : l < L)
    (inb : ∀ a, (![l, 0] : Fin 2 → ℕ) a + (⟨2, ![1, n]⟩ : Shape).size a ≤ (⟨2, ![L, n]⟩ : Shape).size a)
    (o : Fin n) :
    View.ld X (Rect.unit (s := ⟨2, ![L, n]⟩) ![l, 0] (⟨2, ![1, n]⟩ : Shape).size inb) (ix2 (0 : Fin 1) o)
      = X (ix2 ⟨l, hl⟩ o) := by
  show X ((Rect.unit (s := ⟨2, ![L, n]⟩) ![l, 0] (⟨2, ![1, n]⟩ : Shape).size inb).idx (ix2 (0 : Fin 1) o)) = _
  refine congrArg X (funext fun a => Fin.ext ?_)
  match a with
  | ⟨0, _⟩ => show l + 1 * 0 = l; omega
  | ⟨1, _⟩ => show 0 + 1 * o.val = o.val; omega

end Cert.K3Gin

end
-- ==== Proof.KernelBody.lean ====
/-
  The kernel body at a row.

  The body's arithmetic is nine dense layers on a tile of 2048 rows. Read a row at a time on the extended reals it is
  the collapsed chain of Spec: the encoder's two layers, three times the result plus the summed initial nodes,
  then per GIN layer its two dense layers with the rectifier, the next layer fed three times the previous
  layer's output, and the decoder's affine output. The body's text is cut into several pure terms; each is
  read at a row here, and the last lemma puts them together.
-/
import proofs.«145630_j54657753809375_2_alg».proof.Proof.Gen.KernelIdeal.Frame
import proofs.«145630_j54657753809375_2_alg».proof.Proof.KernelLayers
import proofs.«145630_j54657753809375_2_alg».proof.Proof.Params
import Idealize.ShloMosaic.Lib.Pipeline.Value

noncomputable section

namespace Cert.K3Gin.Body

open Cert.KernelIdeal Cert.KernelIdeal.Gen Cert.K3Gin
open Idealize.ShloMosaic Idealize.ShloMosaic.ValueIdx
open scoped BigOperators

/-! ## The three products' dimension numbers are the plain ones -/

theorem dot16 : dot_S2048x16_S16x256_S2048x256_1_0_0_1_n_n = DotDims.plain 2048 16 256 := rfl
theorem dot256 : dot_S2048x256_S256x256_S2048x256_1_0_0_1_n_n = DotDims.plain 2048 256 256 := rfl
theorem dot1 : dot_S2048x256_S256x1_S2048x1_1_0_0_1_n_n = DotDims.plain 2048 256 1 := rfl

/-! ## The pieces of the body, a row at a time -/

/-- The encoder, tripled, plus the summed initial nodes. -/
theorem pay2_row (v0 : Vec Ideal S2048x16 .f32) (v2 : Vec Ideal S256x16 .bf16) (v6 : Vec Ideal S1x256 .f32)
    (v12 : Vec Ideal S256x256 .bf16) (v17 v25 : Vec Ideal S1x256 .f32) (p : Fin 2048) :
    rowOf (k0_pay2 (F := Ideal) v0 v2 v6 v12 v17 v25) p
      = fun o => 3 * mlp (matOf v2) (rowOf v6 0) (matOf v12) (rowOf v17 0) (rowOf v0 p) o + rowOf v25 0 o := by
  unfold k0_pay2
  dsimp only
  simp only [shapeCast_self]
  simp only [bias_row, matmulT_row _ dot256, matmulT_row _ dot16, relu_row, triple_row]
  rfl

/-- A layer's first weight slab as a matrix. -/
theorem pay3_mat (v29 : Vec Ideal S1x256x256 .bf16) : matOf (k0_pay3 (F := Ideal) v29) = slabOf v29 := by
  unfold k0_pay3
  dsimp only
  rw [matOf_dropUnit]

/-- A layer's bias row, cast to a vector and back. -/
theorem pay4_row (v31 : Vec Ideal S1x256 .f32) : rowOf (k0_pay4 (F := Ideal) v31) 0 = rowOf v31 0 := by
  unfold k0_pay4
  dsimp only
  rw [rowOf_vec_roundtrip]

/-- The same for the second layer's second bias. -/
theorem pay5_row (v62 : Vec Ideal S1x256 .f32) : rowOf (k0_pay5 (F := Ideal) v62) 0 = rowOf v62 0 := by
  unfold k0_pay5
  dsimp only
  rw [rowOf_vec_roundtrip]

/-- The first GIN layer whole, tripled, then the first half of the second layer. -/
theorem pay6_row (v28 : FVec Ideal S2048x256 .f32) (v30 : FVec Ideal S256x256 .bf16) (v33 : FVec Ideal S1x256 .f32)
    (v34 : Vec Ideal S1x256x256 .bf16) (v36 : Vec Ideal S1x256 .f32) (v55 : Vec Ideal S1x256x256 .bf16)
    (v57 : Vec Ideal S1x256 .f32) (p : Fin 2048) :
    rowOf (k0_pay6 (F := Ideal) v28 v30 v33 v34 v36 v55 v57) p
      = relu (affine (slabOf v55) (rowOf v57 0)
          (fun o => 3 * mlp (matOf v30) (rowOf v33 0) (slabOf v34) (rowOf v36 0) (rowOf v28 p) o)) := by
  unfold k0_pay6
  dsimp only
  simp only [truncf_row, bias_row, matmulT_row _ dot256, relu_row, triple_row, matOf_dropUnit, rowOf_vec_roundtrip]
  rfl

/-- The second layer's second weight slab, transposed: entry (k, c) is the slab's (c, k). -/
theorem pay7_entry (v60 : Vec Ideal S1x256x256 .bf16) (k c : Fin 256) :
    k0_pay7 (F := Ideal) v60 (ix2 k c) = slabOf v60 c k := by
  unfold k0_pay7
  dsimp only
  rw [transpose_entry, matOf_dropUnit]

/-- The second half of the second layer, tripled, the third layer whole, and the decoder's product. -/
theorem pay8_row (v64 : FVec Ideal S1x256 .f32) (v72 : FVec Ideal S2048x256 .bf16) (v73 : FVec Ideal S256x256 .bf16)
    (v81 : Vec Ideal S1x256x256 .bf16) (v83 : Vec Ideal S1x256 .f32) (v86 : Vec Ideal S1x256x256 .bf16)
    (v88 : Vec Ideal S1x256 .f32) (v105 : Vec Ideal S1x256 .bf16) (p : Fin 2048) :
    rowOf (k0_pay8 (F := Ideal) v64 v72 v73 (constant (F := Ideal) S2048x256 .f32 0x00000000#32) v81 v83 v86 v88 v105) p
      = fun c => ∑ q : Fin 256,
          mlp (slabOf v81) (rowOf v83 0) (slabOf v86) (rowOf v88 0)
            (fun o => 3 * relu (fun o' => (∑ k : Fin 256, rowOf v72 p k * v73 (ix2 k o')) + rowOf v64 0 o') o) q
          * matOf v105 c q := by
  unfold k0_pay8
  dsimp only
  simp only [shapeCast_self]
  simp only [truncf_row, bias_row, matmulT_row _ dot256, matmulT_row _ dot1, matmul_row _ dot256, relu_row, triple_row,
    matOf_dropUnit, rowOf_vec_roundtrip]
  rfl

/-- The decoder's bias, broadcast down the tile. -/
theorem pay9_row (v107 : Vec Ideal S1x1 .f32) (p : Fin 2048) : rowOf (k0_pay9 (F := Ideal) v107) p = rowOf v107 0 := by
  unfold k0_pay9
  dsimp only
  funext c
  unfold rowOf
  rw [broadcastTo_1b_ab_apply, shapeCast_self]

/-- The stored value: product plus bias. -/
theorem pay1_row (v111 v112 : FVec Ideal S2048x1 .f32) (p : Fin 2048) :
    rowOf (k0_pay1 (F := Ideal) v111 v112) p = fun c => rowOf v111 p c + rowOf v112 p c := rfl

/-! ## The body whole -/

theorem hz2 : (![0, 0] : Fin 2 → Nat) = fun _ => 0 := funext fun a => by fin_cases a <;> rfl

/-- Where the body's slab and row loads read: the slab at layer offset l of a stacked weight, at (0, o, q), is the
    stack's (l, o, q); the row at offset l of a stacked bias, at (0, o), is the stack's (l, o). -/
theorem idx_w0 (o q : Fin 256) : (r0_4 : Rect S3x256x256).idx (ix3 (0 : Fin 1) o q) = ix3 (0 : Fin 3) o q :=
  funext fun a => Fin.ext (by
    match a with
    | ⟨0, _⟩ => show 0 + 1 * 0 = 0; omega
    | ⟨1, _⟩ => show 0 + 1 * o.val = o.val; omega
    | ⟨2, _⟩ => show 0 + 1 * q.val = q.val; omega)
theorem idx_w1 (o q : Fin 256) : (r0_6 : Rect S3x256x256).idx (ix3 (0 : Fin 1) o q) = ix3 (1 : Fin 3) o q :=
  funext fun a => Fin.ext (by
    match a with
    | ⟨0, _⟩ => show 1 + 1 * 0 = 1; omega
    | ⟨1, _⟩ => show 0 + 1 * o.val = o.val; omega
    | ⟨2, _⟩ => show 0 + 1 * q.val = q.val; omega)
theorem idx_w2 (o q : Fin 256) : (r0_8 : Rect S3x256x256).idx (ix3 (0 : Fin 1) o q) = ix3 (2 : Fin 3) o q :=
  funext fun a => Fin.ext (by
    match a with
    | ⟨0, _⟩ => show 2 + 1 * 0 = 2; omega
    | ⟨1, _⟩ => show 0 + 1 * o.val = o.val; omega
    | ⟨2, _⟩ => show 0 + 1 * q.val = q.val; omega)
theorem idx_b0 (o : Fin 256) : (r0_5 : Rect S3x256).idx (ix2 (0 : Fin 1) o) = ix2 (0 : Fin 3) o :=
  funext fun a => Fin.ext (by
    match a with
    | ⟨0, _⟩ => show 0 + 1 * 0 = 0; omega
    | ⟨1, _⟩ => show 0 + 1 * o.val = o.val; omega)
theorem idx_b1 (o : Fin 256) : (r0_7 : Rect S3x256).idx (ix2 (0 : Fin 1) o) = ix2 (1 : Fin 3) o :=
  funext fun a => Fin.ext (by
    match a with
    | ⟨0, _⟩ => show 1 + 1 * 0 = 1; omega
    | ⟨1, _⟩ => show 0 + 1 * o.val = o.val; omega)
theorem idx_b2 (o : Fin 256) : (r0_9 : Rect S3x256).idx (ix2 (0 : Fin 1) o) = ix2 (2 : Fin 3) o :=
  funext fun a => Fin.ext (by
    match a with
    | ⟨0, _⟩ => show 2 + 1 * 0 = 2; omega
    | ⟨1, _⟩ => show 0 + 1 * o.val = o.val; omega)

/-- WHAT THE BODY STORES at row p of its tile: the collapsed chain of that row of the sample block, with the
    parameters as the body's blocks hold them and the fifth block's one row as the summed initial nodes. -/
theorem body_read (init : Fin 3 → Fin 256 → EReal)
    (x0 : Vec Ideal S2048x16 .f32) (x1 : Vec Ideal S256x16 .bf16) (x2 : Vec Ideal S1x256 .f32)
    (x3 : Vec Ideal S256x256 .bf16) (x4 : Vec Ideal S1x256 .f32) (x5 : Vec Ideal S1x256 .f32)
    (x6 : Vec Ideal S3x256x256 .bf16) (x7 : Vec Ideal S3x256 .f32) (x8 : Vec Ideal S3x256x256 .bf16)
    (x9 : Vec Ideal S3x256 .f32) (x10 : Vec Ideal S1x256 .bf16) (x11 : Vec Ideal S1x1 .f32) (p : Fin 2048) :
    out0_12 (F := Ideal) x0 x1 x2 x3 x4 x5 x6 x7 x8 x9 x10 x11 (ix2 p (0 : Fin 1))
      = collapsedFrom (blockParams init x1 x2 x3 x4 x6 x7 x8 x9 x10 x11) (rowOf x5 0) (rowOf x0 p) := by
  unfold out0_12
  rw [View.canon_unit_zero hz2]
  simp only [View.ld_unit_zero (S := S2048x16) hz2, View.ld_unit_zero (S := S256x16) hz2,
    View.ld_unit_zero (S := S1x256) hz2, View.ld_unit_zero (S := S256x256) hz2, View.ld_unit_zero (S := S1x1) hz2]
  show rowOf (k0_pay1 (F := Ideal) _ _) p (0 : Fin 1) = _
  rw [pay1_row, pay8_row, pay9_row]
  simp only [pay6_row, pay7_entry, pay5_row, pay2_row, pay3_mat, pay4_row]
  unfold collapsedFrom dec gin enc blockParams mlp affine relu slabOf rowOf matOf
  simp only [View.ld, idx_w0, idx_w1, idx_w2, idx_b0, idx_b1, idx_b2]

end Cert.K3Gin.Body

end
-- ==== Proof.KernelArray.lean ====
/-
  The kernel's result array.

  The launch runs the body at 16 grid points; point t reads rows 2048 t ... 2048 t + 2047 of the samples and the
  whole of every parameter array, and writes rows 2048 t ... 2048 t + 2047 of a one-column array. The
  parameter arrays the body sees were prepared by host operations before the launch: the encoder biases and the
  decoder bias reshaped to one-row matrices, the three initial node rows summed from zero into one row, and the
  weights narrowed in format, which changes nothing on the extended reals. So every point's block is a block of
  ONE function of the launch's arguments: row b holds the collapsed chain of sample b. The 16 blocks tile the
  array, so the array ends holding that function, and the host operation after the launch copies its one column
  into three.
-/
import proofs.«145630_j54657753809375_2_alg».proof.Proof.Gen.KernelIdeal.Frame
import proofs.«145630_j54657753809375_2_alg».proof.Proof.KernelBody
import proofs.«145630_j54657753809375_2_alg».proof.Proof.Params
import Idealize.ShloMosaic.Lib.Pipeline.Value
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.K3Gin.Kernel

open Cert.KernelIdeal Cert.KernelIdeal.Gen Cert.K3Gin

variable (m : (ℓ : Loc nD τ sig) → Buf (Elt Ideal) ℓ) (ρ : Dev nD → PrngReg)

/-! ## The arguments as launched -/

abbrev A0 (c : Dev nD) : S32768x16.Idx → EReal := m ((c : Thread nD τ).loc main_arg0)
abbrev A1 (c : Dev nD) : S256x16.Idx → EReal := m ((c : Thread nD τ).loc main_arg1)
abbrev A2 (c : Dev nD) : S256.Idx → EReal := m ((c : Thread nD τ).loc main_arg2)
abbrev A3 (c : Dev nD) : S256x256.Idx → EReal := m ((c : Thread nD τ).loc main_arg3)
abbrev A4 (c : Dev nD) : S256.Idx → EReal := m ((c : Thread nD τ).loc main_arg4)
abbrev A5 (c : Dev nD) : S3x256.Idx → EReal := m ((c : Thread nD τ).loc main_arg5)
abbrev A6 (c : Dev nD) : S3x256x256.Idx → EReal := m ((c : Thread nD τ).loc main_arg6)
abbrev A7 (c : Dev nD) : S3x256.Idx → EReal := m ((c : Thread nD τ).loc main_arg7)
abbrev A8 (c : Dev nD) : S3x256x256.Idx → EReal := m ((c : Thread nD τ).loc main_arg8)
abbrev A9 (c : Dev nD) : S3x256.Idx → EReal := m ((c : Thread nD τ).loc main_arg9)
abbrev A10 (c : Dev nD) : S1x256.Idx → EReal := m ((c : Thread nD τ).loc main_arg10)
abbrev A11 (c : Dev nD) : S1.Idx → EReal := m ((c : Thread nD τ).loc main_arg11)

/-- The network's parameters as core c's launch holds them. -/
def P (c : Dev nD) : Params :=
  paramsOf (A1 m c) (A2 m c) (A3 m c) (A4 m c) (A5 m c) (A6 m c) (A7 m c) (A8 m c) (A9 m c) (A10 m c) (A11 m c)

/-! ## What the host operations before the launch leave in the arrays the windows stage -/

theorem V_v5 (c : Dev nD) : (V m c main_v5 : S256x16.Idx → EReal) = A1 m c := by
  show StableHlo.after hostOps0 (fun b => m (c, b)) (Proc.devRef .tc main_v5) = _
  after_results
  rfl

theorem V_v6 (c : Dev nD) : (V m c main_v6 : S256x256.Idx → EReal) = A3 m c := by
  show StableHlo.after hostOps0 (fun b => m (c, b)) (Proc.devRef .tc main_v6) = _
  after_results
  rfl

theorem V_v7 (c : Dev nD) : (V m c main_v7 : S3x256x256.Idx → EReal) = A6 m c := by
  show StableHlo.after hostOps0 (fun b => m (c, b)) (Proc.devRef .tc main_v7) = _
  after_results
  rfl

theorem V_v8 (c : Dev nD) : (V m c main_v8 : S3x256x256.Idx → EReal) = A8 m c := by
  show StableHlo.after hostOps0 (fun b => m (c, b)) (Proc.devRef .tc main_v8) = _
  after_results
  rfl

theorem V_v9 (c : Dev nD) : (V m c main_v9 : S1x256.Idx → EReal) = A10 m c := by
  show StableHlo.after hostOps0 (fun b => m (c, b)) (Proc.devRef .tc main_v9) = _
  after_results
  rfl

theorem V_v0 (c : Dev nD) : (V m c main_v0 : S1x256.Idx → EReal) = shapeCast S1x256 (A2 m c) shapeCasts_S256_S1x256 := by
  show StableHlo.after hostOps0 (fun b => m (c, b)) (Proc.devRef .tc main_v0) = _
  after_results
  rfl

theorem V_v1 (c : Dev nD) : (V m c main_v1 : S1x256.Idx → EReal) = shapeCast S1x256 (A4 m c) shapeCasts_S256_S1x256 := by
  show StableHlo.after hostOps0 (fun b => m (c, b)) (Proc.devRef .tc main_v1) = _
  after_results
  rfl

theorem V_v2 (c : Dev nD) : (V m c main_v2 : S1x1.Idx → EReal) = shapeCast S1x1 (A11 m c) shapeCasts_S1_S1x1 := by
  show StableHlo.after hostOps0 (fun b => m (c, b)) (Proc.devRef .tc main_v2) = _
  after_results
  rfl

theorem V_v4 (c : Dev nD) : (V m c main_v4 : S1x256.Idx → EReal)
    = broadcastInDim S1x256 ![1] bcast_S256_S1x256_1
        (Host.reduceAdd (F := Ideal) (A5 m c) (constant (F := Ideal) S_ .f32 0x00000000#32) reducesTo_S3x256_S256_d0 h_S_) := by
  show StableHlo.after hostOps0 (fun b => m (c, b)) (Proc.devRef .tc main_v4) = _
  after_results

/-! ## Those contents, entry by entry -/

theorem b0_at (c : Dev nD) (o : Fin 256) : (V m c main_v0 : S1x256.Idx → EReal) (ix2 (0 : Fin 1) o) = A2 m c (ix1 o) := by
  rw [V_v0]; exact shapeCast_a_1a_apply _ _ _ _

theorem b1_at (c : Dev nD) (o : Fin 256) : (V m c main_v1 : S1x256.Idx → EReal) (ix2 (0 : Fin 1) o) = A4 m c (ix1 o) := by
  rw [V_v1]; exact shapeCast_a_1a_apply _ _ _ _

theorem db_at (c : Dev nD) : (V m c main_v2 : S1x1.Idx → EReal) (ix2 (0 : Fin 1) (0 : Fin 1)) = A11 m c (ix1 (0 : Fin 1)) := by
  rw [V_v2]; exact shapeCast_a_1a_apply _ _ _ _

/-- The row the fifth window stages is the three initial node rows summed from zero. -/
theorem sumInit_at (c : Dev nD) (o : Fin 256) :
    (V m c main_v4 : S1x256.Idx → EReal) (ix2 (0 : Fin 1) o) = sumInit (P m c) o := by
  rw [V_v4]
  rw [broadcastInDim_apply _ bcast_S256_S1x256_1 _ (ix2 (0 : Fin 1) o) (ix1 o) (fun a => match a with
    | ⟨0, _⟩ => by show o.val = if (256 : Nat) = 1 then 0 else o.val; rw [if_neg (by decide)])]
  simp only [Host.reduceAdd, Ideal.hostReduceAdd_def]
  rw [Ideal.hostReduceAdd_single reducesTo_S3x256_S256_d0 (by decide)]
  rw [show (constant (F := Ideal) S_ .f32 0x00000000#32) (Shape.Idx.first h_S_) = (0 : EReal) from Ideal.ofBits_zero_f32]
  show _ = 0 + ∑ j : Fin 3, A5 m c (ix2 j o)
  refine congrArg (0 + ·) (Finset.sum_congr rfl fun k _ => ?_)
  exact congrArg (A5 m c) (funext fun a => Fin.ext (by match a with | ⟨0, _⟩ => rfl | ⟨1, _⟩ => rfl))

/-! ## The index maps, decided over the 16 grid points -/

/-- The sample window and the output window move together, one block of 2048 rows per point. -/
theorem idx0 : ∀ t : Fin cfg0.N, win0_0.index t (0 : Fin 2) = win0_12.index t (0 : Fin 2) ∧ win0_0.index t (1 : Fin 2) = 0
    ∧ win0_12.index t (1 : Fin 2) = 0 ∧ win0_12.index t (0 : Fin 2) ≤ 15 :=
  (by decide +kernel : ∀ t : Fin grid0.N, _)

/-- Every parameter window stays at block 0. -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)

/-- Every block of 2048 rows is some point's. -/
theorem idx_onto : ∀ q0 : Fin 16, ∃ t : Fin cfg0.N, win0_12.index t = ![q0.val, 0] :=
  (by decide +kernel : ∀ q0 : Fin 16, ∃ t : Fin grid0.N, win0_12.index t = ![q0.val, 0])

/-! ## Each window's block at a point, entry by entry -/

theorem blk1 (c : Dev nD) (t : Fin cfg0.N) (o : Fin 256) (q : Fin 16) :
    (iblk m c 1 t : Vec Ideal S256x16 .bf16) (ix2 o q) = A1 m c (ix2 o q) := by
  obtain ⟨h0, h1⟩ := idx1 t
  unfold iblk
  rw [View.read_apply]
  have e : ((cfg0.win 1).blk t).view.emb (ix2 o q : S256x16.Idx) = (ix2 o q : S256x16.Idx) := funext fun a => Fin.ext (by
    match a with
    | ⟨0, _⟩ => show win0_1.index t (0 : Fin 2) * 256 + 1 * o.val = o.val; omega
    | ⟨1, _⟩ => show win0_1.index t (1 : Fin 2) * 16 + 1 * q.val = q.val; omega)
  rw [e]
  show V m c main_v5 _ = _
  rw [V_v5]

theorem blk2 (c : Dev nD) (t : Fin cfg0.N) (o : Fin 256) :
    (iblk m c 2 t : Vec Ideal S1x256 .f32) (ix2 (0 : Fin 1) o) = A2 m c (ix1 o) := by
  obtain ⟨h0, h1⟩ := idx2 t
  unfold iblk
  rw [View.read_apply]
  have e : ((cfg0.win 2).blk t).view.emb (ix2 (0 : Fin 1) o : S1x256.Idx) = (ix2 (0 : Fin 1) o : S1x256.Idx) := funext fun a => Fin.ext (by
    match a with
    | ⟨0, _⟩ => show win0_2.index t (0 : Fin 2) * 1 + 1 * 0 = 0; omega
    | ⟨1, _⟩ => show win0_2.index t (1 : Fin 2) * 256 + 1 * o.val = o.val; omega)
  rw [e]
  show V m c main_v0 _ = _
  exact b0_at m c o

theorem blk3 (c : Dev nD) (t : Fin cfg0.N) (o : Fin 256) (q : Fin 256) :
    (iblk m c 3 t : Vec Ideal S256x256 .bf16) (ix2 o q) = A3 m c (ix2 o q) := by
  obtain ⟨h0, h1⟩ := idx3 t
  unfold iblk
  rw [View.read_apply]
  have e : ((cfg0.win 3).blk t).view.emb (ix2 o q : S256x256.Idx) = (ix2 o q : S256x256.Idx) := funext fun a => Fin.ext (by
    match a with
    | ⟨0, _⟩ => show win0_3.index t (0 : Fin 2) * 256 + 1 * o.val = o.val; omega
    | ⟨1, _⟩ => show win0_3.index t (1 : Fin 2) * 256 + 1 * q.val = q.val; omega)
  rw [e]
  show V m c main_v6 _ = _
  rw [V_v6]

theorem blk4 (c : Dev nD) (t : Fin cfg0.N) (o : Fin 256) :
    (iblk m c 4 t : Vec Ideal S1x256 .f32) (ix2 (0 : Fin 1) o) = A4 m c (ix1 o) := by
  obtain ⟨h0, h1⟩ := idx4 t
  unfold iblk
  rw [View.read_apply]
  have e : ((cfg0.win 4).blk t).view.emb (ix2 (0 : Fin 1) o : S1x256.Idx) = (ix2 (0 : Fin 1) o : S1x256.Idx) := funext fun a => Fin.ext (by
    match a with
    | ⟨0, _⟩ => show win0_4.index t (0 : Fin 2) * 1 + 1 * 0 = 0; omega
    | ⟨1, _⟩ => show win0_4.index t (1 : Fin 2) * 256 + 1 * o.val = o.val; omega)
  rw [e]
  show V m c main_v1 _ = _
  exact b1_at m c o

theorem blk5 (c : Dev nD) (t : Fin cfg0.N) (o : Fin 256) :
    (iblk m c 5 t : Vec Ideal S1x256 .f32) (ix2 (0 : Fin 1) o) = sumInit (P m c) o := by
  obtain ⟨h0, h1⟩ := idx5 t
  unfold iblk
  rw [View.read_apply]
  have e : ((cfg0.win 5).blk t).view.emb (ix2 (0 : Fin 1) o : S1x256.Idx) = (ix2 (0 : Fin 1) o : S1x256.Idx) := funext fun a => Fin.ext (by
    match a with
    | ⟨0, _⟩ => show win0_5.index t (0 : Fin 2) * 1 + 1 * 0 = 0; omega
    | ⟨1, _⟩ => show win0_5.index t (1 : Fin 2) * 256 + 1 * o.val = o.val; omega)
  rw [e]
  show V m c main_v4 _ = _
  exact sumInit_at m c o

theorem blk6 (c : Dev nD) (t : Fin cfg0.N) (l : Fin 3) (o q : Fin 256) :
    (iblk m c 6 t : Vec Ideal S3x256x256 .bf16) (ix3 l o q) = A6 m c (ix3 l o q) := by
  obtain ⟨h0, h1, h2⟩ := idx6 t
  unfold iblk
  rw [View.read_apply]
  have e : ((cfg0.win 6).blk t).view.emb (ix3 l o q : S3x256x256.Idx) = (ix3 l o q : S3x256x256.Idx) := funext fun a => Fin.ext (by
    match a with
    | ⟨0, _⟩ => show win0_6.index t (0 : Fin 3) * 3 + 1 * l.val = l.val; omega
    | ⟨1, _⟩ => show win0_6.index t (1 : Fin 3) * 256 + 1 * o.val = o.val; omega
    | ⟨2, _⟩ => show win0_6.index t (2 : Fin 3) * 256 + 1 * q.val = q.val; omega)
  rw [e]
  show V m c main_v7 _ = _
  rw [V_v7]

theorem blk7 (c : Dev nD) (t : Fin cfg0.N) (l : Fin 3) (o : Fin 256) :
    (iblk m c 7 t : Vec Ideal S3x256 .f32) (ix2 l o) = A7 m c (ix2 l o) := by
  obtain ⟨h0, h1⟩ := idx7 t
  unfold iblk
  rw [View.read_apply]
  have e : ((cfg0.win 7).blk t).view.emb (ix2 l o : S3x256.Idx) = (ix2 l o : S3x256.Idx) := funext fun a => Fin.ext (by
    match a with
    | ⟨0, _⟩ => show win0_7.index t (0 : Fin 2) * 3 + 1 * l.val = l.val; omega
    | ⟨1, _⟩ => show win0_7.index t (1 : Fin 2) * 256 + 1 * o.val = o.val; omega)
  rw [e]
  show V m c main_arg7 _ = _
  rw [V_main_arg7]

theorem blk8 (c : Dev nD) (t : Fin cfg0.N) (l : Fin 3) (o q : Fin 256) :
    (iblk m c 8 t : Vec Ideal S3x256x256 .bf16) (ix3 l o q) = A8 m c (ix3 l o q) := by
  obtain ⟨h0, h1, h2⟩ := idx8 t
  unfold iblk
  rw [View.read_apply]
  have e : ((cfg0.win 8).blk t).view.emb (ix3 l o q : S3x256x256.Idx) = (ix3 l o q : S3x256x256.Idx) := funext fun a => Fin.ext (by
    match a with
    | ⟨0, _⟩ => show win0_8.index t (0 : Fin 3) * 3 + 1 * l.val = l.val; omega
    | ⟨1, _⟩ => show win0_8.index t (1 : Fin 3) * 256 + 1 * o.val = o.val; omega
    | ⟨2, _⟩ => show win0_8.index t (2 : Fin 3) * 256 + 1 * q.val = q.val; omega)
  rw [e]
  show V m c main_v8 _ = _
  rw [V_v8]

theorem blk9 (c : Dev nD) (t : Fin cfg0.N) (l : Fin 3) (o : Fin 256) :
    (iblk m c 9 t : Vec Ideal S3x256 .f32) (ix2 l o) = A9 m c (ix2 l o) := by
  obtain ⟨h0, h1⟩ := idx9 t
  unfold iblk
  rw [View.read_apply]
  have e : ((cfg0.win 9).blk t).view.emb (ix2 l o : S3x256.Idx) = (ix2 l o : S3x256.Idx) := funext fun a => Fin.ext (by
    match a with
    | ⟨0, _⟩ => show win0_9.index t (0 : Fin 2) * 3 + 1 * l.val = l.val; omega
    | ⟨1, _⟩ => show win0_9.index t (1 : Fin 2) * 256 + 1 * o.val = o.val; omega)
  rw [e]
  show V m c main_arg9 _ = _
  rw [V_main_arg9]

theorem blk10 (c : Dev nD) (t : Fin cfg0.N) (o : Fin 256) :
    (iblk m c 10 t : Vec Ideal S1x256 .bf16) (ix2 (0 : Fin 1) o) = A10 m c (ix2 (0 : Fin 1) o) := by
  obtain ⟨h0, h1⟩ := idx10 t
  unfold iblk
  rw [View.read_apply]
  have e : ((cfg0.win 10).blk t).view.emb (ix2 (0 : Fin 1) o : S1x256.Idx) = (ix2 (0 : Fin 1) o : S1x256.Idx) := funext fun a => Fin.ext (by
    match a with
    | ⟨0, _⟩ => show win0_10.index t (0 : Fin 2) * 1 + 1 * 0 = 0; omega
    | ⟨1, _⟩ => show win0_10.index t (1 : Fin 2) * 256 + 1 * o.val = o.val; omega)
  rw [e]
  show V m c main_v9 _ = _
  rw [V_v9]

theorem blk11 (c : Dev nD) (t : Fin cfg0.N)  :
    (iblk m c 11 t : Vec Ideal S1x1 .f32) (ix2 (0 : Fin 1) (0 : Fin 1)) = A11 m c (ix1 (0 : Fin 1)) := by
  obtain ⟨h0, h1⟩ := idx11 t
  unfold iblk
  rw [View.read_apply]
  have e : ((cfg0.win 11).blk t).view.emb (ix2 (0 : Fin 1) (0 : Fin 1) : S1x1.Idx) = (ix2 (0 : Fin 1) (0 : Fin 1) : S1x1.Idx) := funext fun a => Fin.ext (by
    match a with
    | ⟨0, _⟩ => show win0_11.index t (0 : Fin 2) * 1 + 1 * 0 = 0; omega
    | ⟨1, _⟩ => show win0_11.index t (1 : Fin 2) * 1 + 1 * 0 = 0; omega)
  rw [e]
  show V m c main_v2 _ = _
  exact db_at m c

/-- The sample window's block at point t is rows 2048 t ... 2048 t + 2047 of the samples. -/
theorem blk0 (c : Dev nD) (t : Fin cfg0.N) (p : Fin 2048) (k : Fin 16) (b : Fin 32768)
    (hb : b.val = win0_12.index t (0 : Fin 2) * 2048 + p.val) :
    (iblk m c 0 t : Vec Ideal S2048x16 .f32) (ix2 p k) = A0 m c (ix2 b k) := by
  obtain ⟨h0, h1, -, -⟩ := idx0 t
  unfold iblk
  rw [View.read_apply]
  have e : ((cfg0.win 0).blk t).view.emb (ix2 p k : S2048x16.Idx) = (ix2 b k : S32768x16.Idx) := funext fun a => Fin.ext (by
    match a with
    | ⟨0, _⟩ => show win0_0.index t (0 : Fin 2) * 2048 + 1 * p.val = b.val; omega
    | ⟨1, _⟩ => show win0_0.index t (1 : Fin 2) * 16 + 1 * k.val = k.val; omega)
  rw [e]
  show V m c main_arg0 _ = _
  rw [V_main_arg0]

/-! ## What a point writes back -/

/-- The array the launch fills: row b holds the collapsed chain of sample b. -/
def G (c : Dev nD) : S32768x1.Idx → EReal := fun i => collapsed (P m c) (fun k => A0 m c (ix2 (i 0) k))

/-- The body's blocks name the launch's parameters. -/
theorem blockParams_eq (c : Dev nD) (t : Fin cfg0.N) :
    blockParams (P m c).init (iblk m c 1 t : Vec Ideal S256x16 .bf16) (iblk m c 2 t : Vec Ideal S1x256 .f32)
      (iblk m c 3 t : Vec Ideal S256x256 .bf16) (iblk m c 4 t : Vec Ideal S1x256 .f32)
      (iblk m c 6 t : Vec Ideal S3x256x256 .bf16) (iblk m c 7 t : Vec Ideal S3x256 .f32)
      (iblk m c 8 t : Vec Ideal S3x256x256 .bf16) (iblk m c 9 t : Vec Ideal S3x256 .f32)
      (iblk m c 10 t : Vec Ideal S1x256 .bf16) (iblk m c 11 t : Vec Ideal S1x1 .f32) = P m c := by
  unfold blockParams P paramsOf
  rw [Params.mk.injEq]
  exact ⟨funext fun o => funext fun q => blk1 m c t o q, funext fun o => blk2 m c t o,
    funext fun o => funext fun q => blk3 m c t o q, funext fun o => blk4 m c t o, rfl,
    funext fun l => funext fun o => funext fun q => blk6 m c t l o q, funext fun l => funext fun o => blk7 m c t l o,
    funext fun l => funext fun o => funext fun q => blk8 m c t l o q, funext fun l => funext fun o => blk9 m c t l o,
    funext fun o => blk10 m c t o, blk11 m c t⟩

/-- WHAT POINT t WRITES BACK is block t of G. -/
theorem flushed_eq (c : Dev nD) (t : Fin cfg0.N) :
    (dats m 0 c).flushed 12 t = ((cfg0.win 12).blk t).view.read (Elt Ideal) (G m c) := by
  show (cfg0.win 12).cut (grid0.coords t) ((dats m 0 c).after 12 t) = _
  rw [after0_12]
  funext y
  obtain ⟨p, q, rfl⟩ : ∃ (p : Fin 2048) (q : Fin 1), y = ix2 p q := ⟨y 0, y 1, eq_ix2 y⟩
  obtain rfl : q = 0 := Subsingleton.elim _ _
  rw [View.read_apply]
  show out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 p (0 : Fin 1))
    = G m c (((cfg0.win 12).blk t).view.emb (ix2 p (0 : Fin 1) : S2048x1.Idx))
  rw [Cert.K3Gin.Body.body_read (P m c).init, blockParams_eq m c t]
  unfold G collapsed
  have hs : rowOf (iblk m c 5 t : Vec Ideal S1x256 .f32) 0 = sumInit (P m c) := funext fun o => blk5 m c t o
  have hx : rowOf (iblk m c 0 t : Vec Ideal S2048x16 .f32) p
      = fun k => A0 m c (ix2 ((((cfg0.win 12).blk t).view.emb (ix2 p (0 : Fin 1) : S2048x1.Idx) : S32768x1.Idx) 0) k) :=
    funext fun k => blk0 m c t p k _ (by
      show win0_12.index t (0 : Fin 2) * 2048 + 1 * p.val = win0_12.index t (0 : Fin 2) * 2048 + p.val
      omega)
  rw [hs, hx]

/-! ## The blocks tile the array -/

theorem mem_blk (t : Fin cfg0.N) (i : S32768x1.Idx) :
    i ∈ ((cfg0.win 12).blk t).view.set ↔ ∀ a : Fin 2, win0_12.index t a * S2048x1.size a ≤ (i a).val
      ∧ (i a).val < win0_12.index t a * S2048x1.size a + S2048x1.size a := by
  show i ∈ ((View.whole main_v10).slice (win0_12.rect t)).set ↔ _
  rw [View.set_slice_whole, Rect.mem_set_unit]
  exact Iff.rfl

theorem cover (i : S32768x1.Idx) :
    ∃ t : Fin cfg0.N, (cfg0.win 12).flush t = true ∧ i ∈ ((cfg0.win 12).blk t).view.set := by
  have hi0 : (i 0).val < 32768 := (i 0).isLt
  have hi1 : (i 1).val < 1 := (i 1).isLt
  obtain ⟨t, ht⟩ := idx_onto ⟨(i 0).val / 2048, by omega⟩
  have q0 : win0_12.index t (0 : Fin 2) = (i 0).val / 2048 := congrFun ht 0
  have q1 : win0_12.index t (1 : Fin 2) = 0 := congrFun ht 1
  refine ⟨t, flush0_12 t, ?_⟩
  rw [mem_blk]
  intro a
  match a with
  | ⟨0, _⟩ => show win0_12.index t (0 : Fin 2) * 2048 ≤ (i 0).val ∧ (i 0).val < win0_12.index t (0 : Fin 2) * 2048 + 2048; omega
  | ⟨1, _⟩ => show win0_12.index t (1 : Fin 2) * 1 ≤ (i 1).val ∧ (i 1).val < win0_12.index t (1 : Fin 2) * 1 + 1; omega

/-- THE ARRAY after the launch is G. -/
theorem final (c : Dev nD) : (dats m 0 c).arrAt 12 cfg0.N = G m c :=
  (dats m 0 c).arrAt_eq_of_cover 12 (G m c) (fun t _ => flushed_eq m c t) cover

/-! ## The host operation after the launch, and the run -/

/-- The program's result: entry (b, j) is the collapsed chain of sample b, the same in the three columns. -/
def result (c : Dev nD) : S32768x3.Idx → EReal := fun i => collapsed (P m c) (fun k => A0 m c (ix2 (i 0) k))

theorem tail_eq (c : Dev nD) : Pipeline.afterTail₀ cfgs (dats m) 0 (V0 m) [hostOps1] c main_v11 = result m c := by
  unfold Pipeline.afterTail₀
  show StableHlo.after hostOps1 _ (Proc.devRef .tc main_v11) = _
  after_results
  rw [show Pipeline.withArrays (cfgs 0).spec c (V0 m c) (fun w => (dats m 0 c).arrAt w (cfgs 0).N) (Proc.devRef .tc main_v10)
      = G m c from (Pipeline.withArrays_arr spec0 launch0.win.arr_inj c _ _ 12).trans (final m c)]
  funext i
  obtain ⟨b, j, rfl⟩ : ∃ (b : Fin 32768) (j : Fin 3), i = ix2 b j := ⟨i 0, i 1, eq_ix2 i⟩
  rw [broadcastInDim_apply _ bcast_S32768x1_S32768x3_0_1 _ (ix2 b j) (ix2 b (0 : Fin 1)) (fun a => match a with
    | ⟨0, _⟩ => by show b.val = if (32768 : Nat) = 1 then 0 else b.val; rw [if_neg (by decide)]
    | ⟨1, _⟩ => by show 0 = if (1 : Nat) = 1 then 0 else j.val; rw [if_pos rfl])]
  rfl

/-- THE RUN, READ: every weakly fair execution ends with the result array at the collapsed chain of each sample,
    the same in its three columns, and the arguments as launched. -/
theorem run : θ_run defs (onTc (τ := τ) (main (F := Ideal))) ⟨m, fun _ => 0, ρ⟩ fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h c).2 main_v11 (Pipeline.mem_restRefs_of main_v11 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩)
    (run_main m ρ)

end Cert.K3Gin.Kernel

end
-- ==== Proof.lean ====
/-
  A three-node complete-graph GIN, computed twice.

  For each of 32768 samples the reference encodes the sample, places it on three nodes that start at three given
  rows plus the encoding, runs three message-passing layers in which node j's MLP receives
  node_j + (sum of the nodes - node_j), and decodes each node. The kernel observes that this input is the sum of
  the nodes for every j, so the three nodes agree after the first layer; it runs ONE chain per sample — three
  times the encoding plus the summed initial rows, then each layer fed three times the previous layer's output —
  and copies the one decoded column into three.

  On the extended reals the two agree when every input is a finite real: a + (S - a) = S needs a finite a, and
  with finite inputs every intermediate value is a finite real (sums of products of reals, maxima with zero). The
  precondition says exactly that every entry of every argument is finite. The kernel's narrowing of its matmul
  operands to a shorter float format is the identity on the extended reals, and its constant 3 is exact.

  The pieces: Spec (the two chains on rows and the collapse), RefRead (the reference read at a sample and a node
  is the three-node chain), KernelLayers and KernelBody (the body read at a row is the collapsed chain),
  KernelArray (the blocks tile the result array; the host operations around the launch), PreFinite (the
  precondition gives finiteness). Here they are put together.
-/
import proofs.«145630_j54657753809375_2_alg».proof.Defs
import proofs.«145630_j54657753809375_2_alg».proof.Proof.Gen.Kernel
import proofs.«145630_j54657753809375_2_alg».proof.Proof.Gen.Kernel.Skeleton
import proofs.«145630_j54657753809375_2_alg».proof.Proof.Gen.Kernel.Launch
import proofs.«145630_j54657753809375_2_alg».proof.Proof.Gen.Kernel.Points
import proofs.«145630_j54657753809375_2_alg».proof.Proof.Gen.Kernel.Frame
import proofs.«145630_j54657753809375_2_alg».proof.Proof.Gen.KernelIdeal
import proofs.«145630_j54657753809375_2_alg».proof.Proof.Gen.KernelIdeal.Skeleton
import proofs.«145630_j54657753809375_2_alg».proof.Proof.Gen.KernelIdeal.Launch
import proofs.«145630_j54657753809375_2_alg».proof.Proof.Gen.KernelIdeal.Points
import proofs.«145630_j54657753809375_2_alg».proof.Proof.Gen.KernelIdeal.Frame
import proofs.«145630_j54657753809375_2_alg».proof.Proof.Gen.ReferenceIdeal
import proofs.«145630_j54657753809375_2_alg».proof.Proof.Gen.Pre_finite_inputs
import proofs.«145630_j54657753809375_2_alg».proof.Proof.Gen.ReferenceIdeal.Run
import proofs.«145630_j54657753809375_2_alg».proof.Proof.Gen.ReferenceIdeal.Read
import proofs.«145630_j54657753809375_2_alg».proof.Proof.Spec
import proofs.«145630_j54657753809375_2_alg».proof.Proof.RefRead
import proofs.«145630_j54657753809375_2_alg».proof.Proof.PreFinite
import proofs.«145630_j54657753809375_2_alg».proof.Proof.KernelArray
import Idealize.ShloMosaic.Adequacy
import Idealize.ShloMosaic.Init

noncomputable section

namespace Cert.Proof

open Idealize.ShloMosaic Idealize.ShloMosaic.TcCoe Idealize.SL.Sem Idealize.ShloMosaic.ValueIdx

/-- The three programs run and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- With finite inputs both programs end at the collapsed chain of each sample, in each of the three columns. -/
theorem algebraic : Cert.algebraic_KernelIdeal_ReferenceIdeal := by
  intro m ρ m' ρ' hpre hagree
  refine ⟨fun c => Cert.K3Gin.Kernel.result m c, Cert.K3Gin.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v90_eq]
  obtain ⟨e0, e1, e2, e3, e4, e5, e6, e7, e8, e9, e10, e11⟩ := hagree c
  rw [e0, e1, e2, e3, e4, e5, e6, e7, e8, e9, e10, e11]
  funext i
  obtain ⟨b, j, rfl⟩ : ∃ (b : Fin 32768) (j : Fin 3), i = ix2 b j := ⟨i 0, i 1, eq_ix2 i⟩
  rw [Cert.K3Gin.Ref.reference_read]
  obtain ⟨f0, f1, f2, f3, f4, f5, f6, f7, f8, f9, f10, f11⟩ := Cert.K3Gin.Pre.entries_fin _ _ _ _ _ _ _ _ _ _ _ _ (hpre c)
  exact Cert.K3Gin.perNode_eq_collapsed (P := Cert.K3Gin.Kernel.P m c)
    ⟨fun o q => f1 _, fun o => f2 _, fun o q => f3 _, fun o => f4 _, fun j o => f5 _, fun l o q => f6 _,
      fun l o => f7 _, fun l o q => f8 _, fun l o => f9 _, fun q => f10 _, f11 _⟩
    (fun k => f0 _) j

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
